-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x5 : Shape := ⟨2, ![65536, 5]⟩
abbrev S512 : Shape := ⟨1, ![512]⟩
abbrev S5x512 : Shape := ⟨2, ![5, 512]⟩
abbrev S_ : Shape := ⟨0, ![]⟩

class Facts : Prop where
  bcast_S_S65536x5 : S_.BroadcastsInDim S65536x5 (![] : Fin 0 → Fin S65536x5.rank)
  reducesTo_S65536x5_S_d0_1 : S65536x5.ReducesTo [0, 1] S_
  h_S_ : 0 < S_.numel
  bcast_S_S512 : S_.BroadcastsInDim S512 (![] : Fin 0 → Fin S512.rank)
  reducesTo_S512_S_d0 : S512.ReducesTo [0] S_
  bcast_S_S5x512 : S_.BroadcastsInDim S5x512 (![] : Fin 0 → Fin S5x512.rank)
  reducesTo_S5x512_S_d0_1 : S5x512.ReducesTo [0, 1] S_

variable [Facts]

def fn_part2 {F : FTy → Type} [FloatOps F] (main_arg7 : FVec F S512 .f32) (main_arg8 : FVec F S512 .f32) (main_arg9 : FVec F S5x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S5x512 .f32 := Host.absf main_arg9
  let main_cst_16 : FVec F S_ .f32 := constant S_ .f32 0x7F800000#32
  let main_v45 : FVec F S5x512 .f32 := broadcastInDim S5x512 ![] bcast_S_S5x512 main_cst_16
  let main_v46 : IVec S5x512 1 := cmpf .olt main_v44 main_v45
  let main_c_17 : IVec S_ 1 := constantI S_ 1 1#1
  let main_v47 : IVec S_ 1 := (fun x v => Host.reduce IntOp.andi x v reducesTo_S5x512_S_d0_1 h_S_) main_v46 main_c_17
  let main_v48 : IVec S_ 1 := andi main_v43 main_v47
  main_v48

def fn_part1 {F : FTy → Type} [FloatOps F] (main_arg4 : FVec F S512 .f32) (main_arg5 : FVec F S512 .f32) (main_arg6 : FVec F S512 .f32) (main_arg7 : FVec F S512 .f32) (main_arg8 : FVec F S512 .f32) (main_arg9 : FVec F S5x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S65536x5 .f32) (main_arg1 : FVec F S512 .f32) (main_arg2 : FVec F S512 .f32) (main_arg3 : FVec F S512 .f32) (main_arg4 : FVec F S512 .f32) (main_arg5 : FVec F S512 .f32) (main_arg6 : FVec F S512 .f32) (main_arg7 : FVec F S512 .f32) (main_arg8 : FVec F S512 .f32) (main_arg9 : FVec F S5x512 .f32) : IVec S_ 1 :=
  let main_v0 : FVec F S65536x5 .f32 := Host.absf main_arg0
  let main_cst : FVec F S_ .f32 := constant S_ .f32 0x7F800000#32
  let main_v1 : FVec F S65536x5 .f32 := broadcastInDim S65536x5 ![] bcast_S_S65536x5 main_cst
  let main_v2 : IVec S65536x5 1 := cmpf .olt main_v0 main_v1
  let main_c : IVec S_ 1 := constantI S_ 1 1#1
  let main_v3 : IVec S_ 1 := (fun x v => Host.reduce IntOp.andi x v reducesTo_S65536x5_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S65536x5 : Shape := ⟨2, ![65536, 5]⟩
abbrev S512 : Shape := ⟨1, ![512]⟩
abbrev S5x512 : Shape := ⟨2, ![5, 512]⟩
abbrev S1x512 : Shape := ⟨2, ![1, 512]⟩
abbrev S5x5 : Shape := ⟨2, ![5, 5]⟩
abbrev S_ : Shape := ⟨0, ![]⟩
abbrev S5x512x1 : Shape := ⟨3, ![5, 512, 1]⟩
abbrev S5x1x5 : Shape := ⟨3, ![5, 1, 5]⟩
abbrev S5x512x5 : Shape := ⟨3, ![5, 512, 5]⟩
abbrev S5x2560 : Shape := ⟨2, ![5, 2560]⟩
abbrev S512x1 : Shape := ⟨2, ![512, 1]⟩
abbrev S512x5 : Shape := ⟨2, ![512, 5]⟩
abbrev S1x2560 : Shape := ⟨2, ![1, 2560]⟩
abbrev S6x2560 : Shape := ⟨2, ![6, 2560]⟩
abbrev S65536x1 : Shape := ⟨2, ![65536, 1]⟩
abbrev S65536x6 : Shape := ⟨2, ![65536, 6]⟩
abbrev S65536x2560 : Shape := ⟨2, ![65536, 2560]⟩
abbrev S512x6 : Shape := ⟨2, ![512, 6]⟩
abbrev S512x2560 : Shape := ⟨2, ![512, 2560]⟩

abbrev nBuf : Space → Nat
  | .hbm => 56
  | .vmem => 5
  | .smem => 0
  | _ => 0

abbrev bufTy : (tb : Table) → Fin (tcTables nBuf tb) → BufTy
  | .hbm, ⟨0, _⟩ => ⟨S65536x5, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S5x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S5x512, .f32⟩
  | .hbm, ⟨16, _⟩ => ⟨S5x5, .i32⟩
  | .hbm, ⟨17, _⟩ => ⟨S5x5, .i32⟩
  | .hbm, ⟨18, _⟩ => ⟨S_, .i32⟩
  | .hbm, ⟨19, _⟩ => ⟨S5x5, .i32⟩
  | .hbm, ⟨20, _⟩ => ⟨S5x5, .i32⟩
  | .hbm, ⟨21, _⟩ => ⟨S5x5, .i1⟩
  | .hbm, ⟨22, _⟩ => ⟨S5x5, .f32⟩
  | .hbm, ⟨23, _⟩ => ⟨S5x512x1, .f32⟩
  | .hbm, ⟨24, _⟩ => ⟨S5x1x5, .f32⟩
  | .hbm, ⟨25, _⟩ => ⟨S5x512x5, .f32⟩
  | .hbm, ⟨26, _⟩ => ⟨S5x512x5, .f32⟩
  | .hbm, ⟨27, _⟩ => ⟨S5x512x5, .f32⟩
  | .hbm, ⟨28, _⟩ => ⟨S5x2560, .f32⟩
  | .hbm, ⟨29, _⟩ => ⟨S1x512, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S512, .f32⟩
  | .hbm, ⟨34, _⟩ => ⟨S512, .f32⟩
  | .hbm, ⟨35, _⟩ => ⟨S1x512, .f32⟩
  | .hbm, ⟨36, _⟩ => ⟨S512, .f32⟩
  | .hbm, ⟨37, _⟩ => ⟨S512, .f32⟩
  | .hbm, ⟨38, _⟩ => ⟨S1x512, .f32⟩
  | .hbm, ⟨39, _⟩ => ⟨S512, .f32⟩
  | .hbm, ⟨40, _⟩ => ⟨S512, .f32⟩
  | .hbm, ⟨41, _⟩ => ⟨S1x512, .f32⟩
  | .hbm, ⟨42, _⟩ => ⟨S512, .f32⟩
  | .hbm, ⟨43, _⟩ => ⟨S512, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S512x1, .f32⟩
  | .hbm, ⟨48, _⟩ => ⟨S512x1, .f32⟩
  | .hbm, ⟨49, _⟩ => ⟨S512x5, .f32⟩
  | .hbm, ⟨50, _⟩ => ⟨S1x2560, .f32⟩
  | .hbm, ⟨51, _⟩ => ⟨S6x2560, .f32⟩
  | .hbm, ⟨52, _⟩ => ⟨S_, .f32⟩
  | .hbm, ⟨53, _⟩ => ⟨S65536x1, .f32⟩
  | .hbm, ⟨54, _⟩ => ⟨S65536x6, .f32⟩
  | .hbm, ⟨55, _⟩ => ⟨S65536x2560, .f32⟩
  | .local _ .vmem, ⟨0, _⟩ => ⟨S512x6, .f32⟩
  | .local _ .vmem, ⟨1, _⟩ => ⟨S512x6, .f32⟩
  | .local _ .vmem, ⟨2, _⟩ => ⟨S6x2560, .f32⟩
  | .local _ .vmem, ⟨3, _⟩ => ⟨S512x2560, .f32⟩
  | .local _ .vmem, ⟨4, _⟩ => ⟨S512x2560, .f32⟩
  | _, _ => ⟨S65536x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S512_S1x512_1 : S512.BroadcastsInDim S1x512 (![1] : Fin 1 → Fin S1x512.rank)
  concatenates_S1x512_S1x512_S1x512_S1x512_S1x512_S5x512_d0 : Shape.Concatenates [S1x512, S1x512, S1x512, S1x512, S1x512] S5x512 0
  bcast_S_S5x5 : S_.BroadcastsInDim S5x5 (![] : Fin 0 → Fin S5x5.rank)
  bcast_S5x512_S5x512x1_0_1 : S5x512.BroadcastsInDim S5x512x1 (![0, 1] : Fin 2 → Fin S5x512x1.rank)
  bcast_S5x5_S5x1x5_0_2 : S5x5.BroadcastsInDim S5x1x5 (![0, 2] : Fin 2 → Fin S5x1x5.rank)
  bcast_S5x512x1_S5x512x5_0_1_2 : S5x512x1.BroadcastsInDim S5x512x5 (![0, 1, 2] : Fin 3 → Fin S5x512x5.rank)
  bcast_S5x1x5_S5x512x5_0_1_2 : S5x1x5.BroadcastsInDim S5x512x5 (![0, 1, 2] : Fin 3 → Fin S5x512x5.rank)
  shapeCasts_S5x512x5_S5x2560 : S5x512x5.ShapeCasts S5x2560
  slices_S5x512_S1x512_0_0 : S5x512.Slices ![0, 0] S1x512
  shapeCasts_S1x512_S512 : S1x512.ShapeCasts S512
  slices_S5x512_S1x512_1_0 : S5x512.Slices ![1, 0] S1x512
  slices_S5x512_S1x512_2_0 : S5x512.Slices ![2, 0] S1x512
  slices_S5x512_S1x512_3_0 : S5x512.Slices ![3, 0] S1x512
  slices_S5x512_S1x512_4_0 : S5x512.Slices ![4, 0] S1x512
  bcast_S512_S512x1_0 : S512.BroadcastsInDim S512x1 (![0] : Fin 1 → Fin S512x1.rank)
  concatenates_S512x1_S512x1_S512x1_S512x1_S512x1_S512x5_d1 : Shape.Concatenates [S512x1, S512x1, S512x1, S512x1, S512x1] S512x5 1
  shapeCasts_S512x5_S1x2560 : S512x5.ShapeCasts S1x2560
  concatenates_S5x2560_S1x2560_S6x2560_d0 : Shape.Concatenates [S5x2560, S1x2560] S6x2560 0
  bcast_S_S65536x1 : S_.BroadcastsInDim S65536x1 (![] : Fin 0 → Fin S65536x1.rank)
  concatenates_S65536x5_S65536x1_S65536x6_d1 : Shape.Concatenates [S65536x5, S65536x1] S65536x6 1
  inb_S512x6_S512x6_0_0 : ∀ a, (![0, 0] : Fin 2 → Nat) a + S512x6.size a ≤ S512x6.size a
  h_S512x6 : 0 < S512x6.numel
  shapeCasts_S512x6_S512x6 : S512x6.ShapeCasts S512x6
  inb_S6x2560_S6x2560_0_0 : ∀ a, (![0, 0] : Fin 2 → Nat) a + S6x2560.size a ≤ S6x2560.size a
  h_S6x2560 : 0 < S6x2560.numel
  shapeCasts_S6x2560_S6x2560 : S6x2560.ShapeCasts S6x2560
  inb_S512x2560_S512x2560_0_0 : ∀ a, (![0, 0] : Fin 2 → Nat) a + S512x2560.size a ≤ S512x2560.size a
  h_S512x2560 : 0 < S512x2560.numel
  dot_S512x6_S6x2560_S512x2560_1_0_0_1_n_n_wf : DotDims.WF S512x6 S6x2560 S512x2560 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6.size a ≤ S65536x6.size a
  hwx0_0 : ∀ i : grid0.Coords, EltTy.bits .f32 = 32 ∨ (Rect.block (s := S65536x6) S512x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x2560.size a ≤ S6x2560.size a
  hwx0_1 : ∀ i : grid0.Coords, EltTy.bits .f32 = 32 ∨ (Rect.block (s := S6x2560) S6x2560.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2560.size a ≤ S65536x2560.size a
  hwx0_2 : ∀ i : grid0.Coords, EltTy.bits .f32 = 32 ∨ (Rect.block (s := S65536x2560) S512x2560.size (cc0_transform_2 i) (hinb0_2 i)).WholeWords (EltTy.packing .f32)

variable [Facts₀]

def dot_S512x6_S6x2560_S512x2560_1_0_0_1_n_n : DotDims S512x6 S6x2560 S512x2560 where
  lhsContracting := [1]
  rhsContracting := [0]
  lhsNonContracting := [0]
  rhsNonContracting := [1]
  lhsBatch := []
  rhsBatch := []
  wf := dot_S512x6_S6x2560_S512x2560_1_0_0_1_n_n_wf

abbrev win0_0 : Pipeline.Window sig grid0 :=
  Pipeline.Window.ofSpec (Memref.whole main_v42) S512x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S6x2560.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S512x2560.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x5 : Shape := ⟨2, ![65536, 5]⟩
abbrev S512 : Shape := ⟨1, ![512]⟩
abbrev S5x512 : Shape := ⟨2, ![5, 512]⟩
abbrev S65536x1 : Shape := ⟨2, ![65536, 1]⟩
abbrev S1x512 : Shape := ⟨2, ![1, 512]⟩
abbrev S65536x512 : Shape := ⟨2, ![65536, 512]⟩
abbrev S65536x512x1 : Shape := ⟨3, ![65536, 512, 1]⟩
abbrev S65536x512x5 : Shape := ⟨3, ![65536, 512, 5]⟩
abbrev S65536x2560 : Shape := ⟨2, ![65536, 2560]⟩

abbrev nBuf : Space → Nat
  | .hbm => 72
  | .vmem => 0
  | .smem => 0
  | _ => 0

abbrev bufTy : (tb : Table) → Fin (tcTables nBuf tb) → BufTy
  | .hbm, ⟨0, _⟩ => ⟨S65536x5, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S5x512, .f32⟩
  | .hbm, ⟨10, _⟩ => ⟨S65536x1, .f32⟩
  | .hbm, ⟨11, _⟩ => ⟨S1x512, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S1x512, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S65536x512, .f32⟩
  | .hbm, ⟨20, _⟩ => ⟨S65536x512, .f32⟩
  | .hbm, ⟨21, _⟩ => ⟨S65536x1, .f32⟩
  | .hbm, ⟨22, _⟩ => ⟨S1x512, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S1x512, .f32⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S65536x512, .f32⟩
  | .hbm, ⟨31, _⟩ => ⟨S65536x512, .f32⟩
  | .hbm, ⟨32, _⟩ => ⟨S65536x1, .f32⟩
  | .hbm, ⟨33, _⟩ => ⟨S1x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S1x512, .f32⟩
  | .hbm, ⟨38, _⟩ => ⟨S512, .f32⟩
  | .hbm, ⟨39, _⟩ => ⟨S512, .f32⟩
  | .hbm, ⟨40, _⟩ => ⟨S1x512, .f32⟩
  | .hbm, ⟨41, _⟩ => ⟨S65536x512, .f32⟩
  | .hbm, ⟨42, _⟩ => ⟨S65536x512, .f32⟩
  | .hbm, ⟨43, _⟩ => ⟨S65536x1, .f32⟩
  | .hbm, ⟨44, _⟩ => ⟨S1x512, .f32⟩
  | .hbm, ⟨45, _⟩ => ⟨S65536x512, .f32⟩
  | .hbm, ⟨46, _⟩ => ⟨S65536x512, .f32⟩
  | .hbm, ⟨47, _⟩ => ⟨S65536x512, .f32⟩
  | .hbm, ⟨48, _⟩ => ⟨S1x512, .f32⟩
  | .hbm, ⟨49, _⟩ => ⟨S512, .f32⟩
  | .hbm, ⟨50, _⟩ => ⟨S512, .f32⟩
  | .hbm, ⟨51, _⟩ => ⟨S1x512, .f32⟩
  | .hbm, ⟨52, _⟩ => ⟨S65536x512, .f32⟩
  | .hbm, ⟨53, _⟩ => ⟨S65536x512, .f32⟩
  | .hbm, ⟨54, _⟩ => ⟨S65536x1, .f32⟩
  | .hbm, ⟨55, _⟩ => ⟨S1x512, .f32⟩
  | .hbm, ⟨56, _⟩ => ⟨S65536x512, .f32⟩
  | .hbm, ⟨57, _⟩ => ⟨S65536x512, .f32⟩
  | .hbm, ⟨58, _⟩ => ⟨S65536x512, .f32⟩
  | .hbm, ⟨59, _⟩ => ⟨S1x512, .f32⟩
  | .hbm, ⟨60, _⟩ => ⟨S512, .f32⟩
  | .hbm, ⟨61, _⟩ => ⟨S512, .f32⟩
  | .hbm, ⟨62, _⟩ => ⟨S1x512, .f32⟩
  | .hbm, ⟨63, _⟩ => ⟨S65536x512, .f32⟩
  | .hbm, ⟨64, _⟩ => ⟨S65536x512, .f32⟩
  | .hbm, ⟨65, _⟩ => ⟨S65536x512x1, .f32⟩
  | .hbm, ⟨66, _⟩ => ⟨S65536x512x1, .f32⟩
  | .hbm, ⟨67, _⟩ => ⟨S65536x512x1, .f32⟩
  | .hbm, ⟨68, _⟩ => ⟨S65536x512x1, .f32⟩
  | .hbm, ⟨69, _⟩ => ⟨S65536x512x1, .f32⟩
  | .hbm, ⟨70, _⟩ => ⟨S65536x512x5, .f32⟩
  | .hbm, ⟨71, _⟩ => ⟨S65536x2560, .f32⟩
  | _, _ => ⟨S65536x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩

abbrev nD : Nat := 1
abbrev τ : Topo := Topo.v7x

variable {F : FTy → Type} [FloatOps F]

class Facts₀ : Prop where
  slices_S65536x5_S65536x1_0_0 : S65536x5.Slices ![0, 0] S65536x1
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  slices_S5x512_S1x512_0_0 : S5x512.Slices ![0, 0] S1x512
  shapeCasts_S1x512_S512 : S1x512.ShapeCasts S512
  slices_S65536x5_S65536x1_0_1 : S65536x5.Slices ![0, 1] S65536x1
  slices_S5x512_S1x512_1_0 : S5x512.Slices ![1, 0] S1x512
  slices_S65536x5_S65536x1_0_2 : S65536x5.Slices ![0, 2] S65536x1
  slices_S5x512_S1x512_2_0 : S5x512.Slices ![2, 0] S1x512
  slices_S65536x5_S65536x1_0_3 : S65536x5.Slices ![0, 3] S65536x1
  slices_S5x512_S1x512_3_0 : S5x512.Slices ![3, 0] S1x512
  slices_S65536x5_S65536x1_0_4 : S65536x5.Slices ![0, 4] S65536x1
  slices_S5x512_S1x512_4_0 : S5x512.Slices ![4, 0] S1x512
  bcast_S65536x512_S65536x512x1_0_1 : S65536x512.BroadcastsInDim S65536x512x1 (![0, 1] : Fin 2 → Fin S65536x512x1.rank)
  concatenates_S65536x512x1_S65536x512x1_S65536x512x1_S65536x512x1_S65536x512x1_S65536x512x5_d2 : Shape.Concatenates [S65536x512x1, S65536x512x1, S65536x512x1, S65536x512x1, S65536x512x1] S65536x512x5 2
  shapeCasts_S65536x512x5_S65536x2560 : S65536x512x5.ShapeCasts S65536x2560

variable [Facts₀]

class Facts : Prop extends Facts₀ where

variable [Facts]
-- ==== Proof.Spec.lean ====
/-
  The specification of the result, index by index, over the extended reals.

  The output has 65536 rows and 2560 = 512 · 5 columns; column `c` is the pair (e, q) = (c / 5, c % 5): feature `e`
  of source `q`. Source `q` scales column `q` of `x` by a weight vector and adds a bias vector and row `q` of the order
  table; sources 1 and 2 share one weight and one bias vector:
      G (r, c) = x (r, q) · w_q (e) + (b_q (e) + table (q, e)).

  The kernel computes the same number as a 6-term dot product: row `r` of `x` with a trailing 1 (`X6spec`) against
  column `c` of a 6 × 2560 matrix (`W6spec`) whose first five rows hold `w_k (e)` times the Kronecker delta of `k` and
  `q`, and whose sixth row holds the bias. On the extended reals `a · 0 = 0`, `a · 1 = a` and `0 + a = a` hold for every
  `a`, infinite or not, so the four terms with `k ≠ q` vanish and the dot product is `G` with no side condition
  (`prod6_eq_G`).

  Every function of an index is stated twice: over explicit coordinates (`gAt`, `x6At`, `w6At`, `prod6At`), where the
  proofs live, and as the function of a rank-2 index that reads its two coordinates (`G`, `X6spec`, `W6spec`, `Prod6`).
-/
import Idealize.ShloMosaic.PureOps.Ideal
import Idealize.ShloMosaic.Lib.ValueIdx

noncomputable section

open scoped BigOperators

namespace Cert.Spec

open Idealize.ShloMosaic Idealize.ShloMosaic.ValueIdx

/-- A vector of 512 extended reals, and the matrices of the statement. -/
abbrev V512 := (⟨1, ![512]⟩ : Shape).Idx → EReal
abbrev M65536x5 := (⟨2, ![65536, 5]⟩ : Shape).Idx → EReal
abbrev M5x512 := (⟨2, ![5, 512]⟩ : Shape).Idx → EReal
abbrev M65536x6 := (⟨2, ![65536, 6]⟩ : Shape).Idx → EReal
abbrev M6x2560 := (⟨2, ![6, 2560]⟩ : Shape).Idx → EReal
abbrev M65536x2560 := (⟨2, ![65536, 2560]⟩ : Shape).Idx → EReal

/-- The feature a column belongs to: `c / 5`. -/
def feat (c : Fin 2560) : Fin 512 := ⟨c.val / 5, by have := c.isLt; omega⟩
/-- The source a column belongs to: `c % 5`. -/
def src (c : Fin 2560) : Fin 5 := ⟨c.val % 5, by omega⟩

/-- Source `q`'s weight vector: sources 1 and 2 share `w3`. -/
def wSel (w1 w3 w5 w7 : V512) (q : Fin 5) : V512 :=
  match q with | 0 => w1 | 1 => w3 | 2 => w3 | 3 => w5 | 4 => w7
/-- Source `q`'s bias vector: sources 1 and 2 share `b4`. -/
def bSel (b2 b4 b6 b8 : V512) (q : Fin 5) : V512 :=
  match q with | 0 => b2 | 1 => b4 | 2 => b4 | 3 => b6 | 4 => b8

/-- The result at row `r`, column `c`: `x (r, q) · w_q (e) + (b_q (e) + table (q, e))`, (e, q) = (c / 5, c % 5). -/
def gAt (x : M65536x5) (w1 b2 w3 b4 w5 b6 w7 b8 : V512) (ot : M5x512) (r : Fin 65536) (c : Fin 2560) : EReal :=
  x (ix2 r (src c)) * wSel w1 w3 w5 w7 (src c) (ix1 (feat c))
    + (bSel b2 b4 b6 b8 (src c) (ix1 (feat c)) + ot (ix2 (src c) (feat c)))
/-- The result, as an array. -/
def G (x : M65536x5) (w1 b2 w3 b4 w5 b6 w7 b8 : V512) (ot : M5x512) : M65536x2560 :=
  fun j => gAt x w1 b2 w3 b4 w5 b6 w7 b8 ot (j 0) (j 1)

/-- `x` with a column of ones appended, at row `r`, column `k`. -/
def x6At (x : M65536x5) (r : Fin 65536) (k : Fin 6) : EReal :=
  if h : k.val < 5 then x (ix2 r ⟨k.val, h⟩) else 1
def X6spec (x : M65536x5) : M65536x6 := fun i => x6At x (i 0) (i 1)

/-- The 6 × 2560 matrix at row `k`, column `c`: for `k < 5` it is `w_k (e) · δ (k, q)`; row 5 holds the bias. -/
def w6At (w1 b2 w3 b4 w5 b6 w7 b8 : V512) (ot : M5x512) (k : Fin 6) (c : Fin 2560) : EReal :=
  if h : k.val < 5 then
    wSel w1 w3 w5 w7 ⟨k.val, h⟩ (ix1 (feat c)) * (if k.val = (src c).val then 1 else 0)
  else bSel b2 b4 b6 b8 (src c) (ix1 (feat c)) + ot (ix2 (src c) (feat c))
def W6spec (w1 b2 w3 b4 w5 b6 w7 b8 : V512) (ot : M5x512) : M6x2560 :=
  fun i => w6At w1 b2 w3 b4 w5 b6 w7 b8 ot (i 0) (i 1)

/-- The 6-term dot product of row `r` of `X` with column `c` of `W`. -/
def prod6At (X : M65536x6) (W : M6x2560) (r : Fin 65536) (c : Fin 2560) : EReal :=
  ∑ k : Fin 6, X (ix2 r k) * W (ix2 k c)
def Prod6 (X : M65536x6) (W : M6x2560) : M65536x2560 := fun j => prod6At X W (j 0) (j 1)

/-- The dot product of the padded row with the padded matrix is the result: four of the first five terms carry the
    factor `0`, the fifth the factor `1`, and the sixth is `1 · bias`. No entry needs to be finite. -/
theorem prod6At_eq_gAt (x : M65536x5) (w1 b2 w3 b4 w5 b6 w7 b8 : V512) (ot : M5x512) (r : Fin 65536) (c : Fin 2560) :
    prod6At (X6spec x) (W6spec w1 b2 w3 b4 w5 b6 w7 b8 ot) r c = gAt x w1 b2 w3 b4 w5 b6 w7 b8 ot r c := by
  show ∑ k : Fin 6, x6At x r k * w6At w1 b2 w3 b4 w5 b6 w7 b8 ot k c = _
  unfold gAt x6At w6At
  rw [Fin.sum_univ_six]
  generalize src c = q
  generalize feat c = e
  match q with
  | ⟨0, _⟩ => simp [wSel, bSel]
  | ⟨1, _⟩ => simp [wSel, bSel]
  | ⟨2, _⟩ => simp [wSel, bSel]
  | ⟨3, _⟩ => simp [wSel, bSel]
  | ⟨4, _⟩ => simp [wSel, bSel]

theorem prod6_eq_G (x : M65536x5) (w1 b2 w3 b4 w5 b6 w7 b8 : V512) (ot : M5x512) :
    Prod6 (X6spec x) (W6spec w1 b2 w3 b4 w5 b6 w7 b8 ot) = G x w1 b2 w3 b4 w5 b6 w7 b8 ot :=
  funext fun j => prod6At_eq_gAt x w1 b2 w3 b4 w5 b6 w7 b8 ot (j 0) (j 1)

end Cert.Spec

end
-- ==== Proof.FrameKernel.lean ====
/-
  The frame of `Kernel`: @main is forty-five host operations (they build the 6-row weight matrix, whose sixth row is the
  bias, and append a column of ones to `x`) followed by ONE pipelined region over 128 grid points. At point `t` the
  region stages rows `512·t … 512·t+511` of the 65536×6 left operand, the whole 6×2560 right operand (fetched once), and
  writes back rows `512·t … 512·t+511` of the 65536×2560 result; the body loads both staged blocks, forms their matrix
  product into a zero accumulator and stores it over the whole output block.

  This module proves, at any float instance `F`: the body's triple (the output block ends at the product of the two
  input blocks), the proof data of the pipeline (each input block unchanged by the body, each output block the product),
  the body obligation at a generic grid point, and from the library's launch theorem the run of @main: it terminates,
  faults nowhere, leaves every result array at what the write-backs compose and every other buffer — the ten argument
  arrays among them, none of which a host operation or the region writes — as the region found it.
-/
import proofs.«169781_j24704651887296_2_alg».proof.Proof.Gen.Kernel.Launch
import proofs.«169781_j24704651887296_2_alg».proof.Proof.Gen.Kernel.Skeleton
import proofs.«169781_j24704651887296_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the forty-five host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's current staging buffer holds its block at every point, for any proof data over the
    region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The right operand's staging buffer holds the whole matrix at every point: fetched at the first, and its block
    index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No argument array is an array of the pipeline, so in a final state of the frame run each holds what the region
    found, which is what was launched. -/
theorem args_kept (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩

/-- The frame claim's post from the frame run's. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_kept m dats r h c) h

/-! ## The body's accesses -/

abbrev r0_0 : Rect S512x6 := Rect.unit (s := S512x6) ![0, 0] S512x6.size inb_S512x6_S512x6_0_0
abbrev r0_1 : Rect S6x2560 := Rect.unit (s := S6x2560) ![0, 0] S6x2560.size inb_S6x2560_S6x2560_0_0
abbrev r0_2 : Rect S512x2560 := Rect.unit (s := S512x2560) ![0, 0] S512x2560.size inb_S512x2560_S512x2560_0_0

/-! ## What the body leaves in the output block -/

/-- The output block after the body: its one store, of the product of the two loaded blocks, over the whole block. -/
def out0_2 (x0 : Vec F S512x6 .f32) (x1 : Vec F S6x2560 .f32) : Vec F S512x2560 .f32 :=
  View.canon [⟨r0_2, k0_pay1 (View.ld x0 r0_0) (View.ld x1 r0_1)⟩]

/-- The one store covers the block. -/
theorem cover0_2 (p0 : Vec F S512x2560 .f32) (y : S512x2560.Idx) :
    ∃ pc ∈ ([⟨r0_2, p0⟩] : List (View.Piece (Elt F) S512x2560 .f32)), y ∈ pc.1.set :=
  View.cover_of_tiled [⟨r0_2, p0⟩] S512x2560.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel (c : Dev nD) (E : Set ℕ) (i : grid0.Coords) (arg1 : Memref sig .tc .vmem S512x6 .f32) (harg1 : arg1.IsWhole) (arg2 : Memref sig .tc .vmem S6x2560 .f32) (harg2 : arg2.IsWhole) (arg3 : Memref sig .tc .vmem S512x2560 .f32) (harg3 : arg3.IsWhole)
    (x0 : Vec F S512x6 .f32) (x1 : Vec F S6x2560 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the output's at the product of the two input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    write-backs compose from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.Kernel.Frame

end
-- ==== Proof.FrameKernelIdeal.lean ====
/-
  The frame of `KernelIdeal`: @main is forty-five host operations (they build the 6-row weight matrix, whose sixth row is the
  bias, and append a column of ones to `x`) followed by ONE pipelined region over 128 grid points. At point `t` the
  region stages rows `512·t … 512·t+511` of the 65536×6 left operand, the whole 6×2560 right operand (fetched once), and
  writes back rows `512·t … 512·t+511` of the 65536×2560 result; the body loads both staged blocks, forms their matrix
  product into a zero accumulator and stores it over the whole output block.

  This module proves, at any float instance `F`: the body's triple (the output block ends at the product of the two
  input blocks), the proof data of the pipeline (each input block unchanged by the body, each output block the product),
  the body obligation at a generic grid point, and from the library's launch theorem the run of @main: it terminates,
  faults nowhere, leaves every result array at what the write-backs compose and every other buffer — the ten argument
  arrays among them, none of which a host operation or the region writes — as the region found it.
-/
import proofs.«169781_j24704651887296_2_alg».proof.Proof.Gen.KernelIdeal.Launch
import proofs.«169781_j24704651887296_2_alg».proof.Proof.Gen.KernelIdeal.Skeleton
import proofs.«169781_j24704651887296_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the forty-five host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's current staging buffer holds its block at every point, for any proof data over the
    region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The right operand's staging buffer holds the whole matrix at every point: fetched at the first, and its block
    index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No argument array is an array of the pipeline, so in a final state of the frame run each holds what the region
    found, which is what was launched. -/
theorem args_kept (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩

/-- The frame claim's post from the frame run's. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_kept m dats r h c) h

/-! ## The body's accesses -/

abbrev r0_0 : Rect S512x6 := Rect.unit (s := S512x6) ![0, 0] S512x6.size inb_S512x6_S512x6_0_0
abbrev r0_1 : Rect S6x2560 := Rect.unit (s := S6x2560) ![0, 0] S6x2560.size inb_S6x2560_S6x2560_0_0
abbrev r0_2 : Rect S512x2560 := Rect.unit (s := S512x2560) ![0, 0] S512x2560.size inb_S512x2560_S512x2560_0_0

/-! ## What the body leaves in the output block -/

/-- The output block after the body: its one store, of the product of the two loaded blocks, over the whole block. -/
def out0_2 (x0 : Vec F S512x6 .f32) (x1 : Vec F S6x2560 .f32) : Vec F S512x2560 .f32 :=
  View.canon [⟨r0_2, k0_pay1 (View.ld x0 r0_0) (View.ld x1 r0_1)⟩]

/-- The one store covers the block. -/
theorem cover0_2 (p0 : Vec F S512x2560 .f32) (y : S512x2560.Idx) :
    ∃ pc ∈ ([⟨r0_2, p0⟩] : List (View.Piece (Elt F) S512x2560 .f32)), y ∈ pc.1.set :=
  View.cover_of_tiled [⟨r0_2, p0⟩] S512x2560.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel (c : Dev nD) (E : Set ℕ) (i : grid0.Coords) (arg1 : Memref sig .tc .vmem S512x6 .f32) (harg1 : arg1.IsWhole) (arg2 : Memref sig .tc .vmem S6x2560 .f32) (harg2 : arg2.IsWhole) (arg3 : Memref sig .tc .vmem S512x2560 .f32) (harg3 : arg3.IsWhole)
    (x0 : Vec F S512x6 .f32) (x1 : Vec F S6x2560 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the output's at the product of the two input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    write-backs compose from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.KernelIdeal.Frame

end
-- ==== Proof.KernelBlocks.lean ====
/-
  From blocks to the array: what the result array holds after the run.

  At grid point `t` the body leaves in the output block the matrix product of the staged 512 × 6 block of the left
  operand with the whole 6 × 2560 right operand: entry (p, q) of the block is the 6-term dot product of row `p` of the
  left block with column `q` of the right operand (the matrix unit accumulates into zero, and a product summed over the
  one contracted axis is a sum over `Fin 6`). The left block at point `t` is rows `512·t … 512·t + 511` of the left
  array, the right block is the right array itself, and the output block is written back over rows
  `512·t … 512·t + 511` of the result. So point `t` writes back block `t` of ONE whole-array function — row `r`,
  column `c` ↦ the dot product of row `r` of the left array with column `c` of the right array — and since row `r` lies
  in block `r / 512`, the 128 blocks cover the result: after the run it is that function.
-/
import proofs.«169781_j24704651887296_2_alg».proof.Proof.FrameKernelIdeal
import proofs.«169781_j24704651887296_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Blocks

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The matrix product at an index -/

/-- The kernel's contraction: 512 × 6 times 6 × 2560, one contracted axis of extent 6. -/
abbrev D6 := dot_S512x6_S6x2560_S512x2560_1_0_0_1_n_n

theorem lhs_row (j : S512x2560.Idx) (k : D6.contr.Idx) : (D6.lhsIdx j k 0 : ℕ) = j 0 := by
  simp [DotDims.lhsIdx, D6, dot_S512x6_S6x2560_S512x2560_1_0_0_1_n_n]; rfl
theorem lhs_col (j : S512x2560.Idx) (k : D6.contr.Idx) : (D6.lhsIdx j k 1 : ℕ) = k ⟨0, by decide⟩ := by
  simp [DotDims.lhsIdx, D6, dot_S512x6_S6x2560_S512x2560_1_0_0_1_n_n]; rfl
theorem rhs_row (j : S512x2560.Idx) (k : D6.contr.Idx) : (D6.rhsIdx j k 0 : ℕ) = k ⟨0, by decide⟩ := by
  simp [DotDims.rhsIdx, D6, dot_S512x6_S6x2560_S512x2560_1_0_0_1_n_n]; rfl
theorem rhs_col (j : S512x2560.Idx) (k : D6.contr.Idx) : (D6.rhsIdx j k 1 : ℕ) = j 1 := by
  simp [DotDims.rhsIdx, D6, dot_S512x6_S6x2560_S512x2560_1_0_0_1_n_n]; rfl

/-- The body's payload at entry (p, q): the dot product of row `p` of the left block with column `q` of the right. -/
theorem pay_apply (x0 : Vec Ideal S512x6 .f32) (x1 : Vec Ideal S6x2560 .f32) (p : Fin 512) (q : Fin 2560) :
    k0_pay1 (F := Ideal) x0 x1 (ix2 p q) = ∑ k : Fin 6, x0 (ix2 p k) * x1 (ix2 k q) := by
  unfold k0_pay1
  rw [shapeCast_self, shapeCast_self]
  simp only [matmul]
  rw [Ideal.matmul_constant_zero_apply, ← Equiv.sum_comp (contrEquiv1 D6 6 rfl rfl).symm]
  refine Finset.sum_congr rfl fun k _ => ?_
  have hk : ((contrEquiv1 D6 6 rfl rfl).symm k ⟨0, by decide⟩ : ℕ) = k.val := contrEquiv1_symm_val D6 6 rfl rfl k
  have eL : D6.lhsIdx (ix2 p q) ((contrEquiv1 D6 6 rfl rfl).symm k) = ix2 p k := by
    funext a; apply Fin.ext
    match a with
    | ⟨0, _⟩ => exact lhs_row _ _
    | ⟨1, _⟩ => exact (lhs_col _ _).trans hk
  have eR : D6.rhsIdx (ix2 p q) ((contrEquiv1 D6 6 rfl rfl).symm k) = ix2 k q := by
    funext a; apply Fin.ext
    match a with
    | ⟨0, _⟩ => exact (rhs_row _ _).trans hk
    | ⟨1, _⟩ => exact rhs_col _ _
  rw [eL, eR]

/-! ## What a point writes back -/

theorem offsets_zero : (![0, 0] : Fin 2 → Nat) = fun _ => 0 := funext fun a => by fin_cases a <;> rfl

/-- The output block after the body is the payload of the two input blocks. -/
theorem out_eq (x0 : Vec Ideal S512x6 .f32) (x1 : Vec Ideal S6x2560 .f32) : out0_2 (F := Ideal) x0 x1 = k0_pay1 x0 x1 := by
  unfold out0_2
  rw [View.canon_unit_zero offsets_zero]
  simp only [View.ld_unit_zero (S := S512x6) offsets_zero, View.ld_unit_zero (S := S6x2560) offsets_zero]

/-- The printed index maps over the grid: the left and the output blocks are row block `t`, everything else block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The same entry against two whole arrays: when row `p` of the left block is row `i 0` of the left array and column
    `q` of the right block is column `i 1` of the right array, the payload's entry (p, q) is the arrays' dot product at `i`. -/
theorem entry_eq_prod (X : Cert.Spec.M65536x6) (W : Cert.Spec.M6x2560) (x0 : Vec Ideal S512x6 .f32) (x1 : Vec Ideal S6x2560 .f32)
    (p : Fin 512) (q : Fin 2560) (i : S65536x2560.Idx)
    (h0 : ∀ k : Fin 6, x0 (ix2 p k) = X (ix2 (i 0) k)) (h1 : ∀ k : Fin 6, x1 (ix2 k q) = W (ix2 k (i 1))) :
    k0_pay1 (F := Ideal) x0 x1 (ix2 p q) = Cert.Spec.prod6At X W (i 0) (i 1) := by
  rw [pay_apply]
  unfold Cert.Spec.prod6At
  exact Finset.sum_congr rfl fun k _ => by rw [h0 k, h1 k]

/-- The whole-array function the blocks are restrictions of: the dot products of the two arrays the region found. -/
def product (c : Dev nD) : S65536x2560.Idx → EReal :=
  Cert.Spec.Prod6 (V m c main_v42 : S65536x6.Idx → EReal) (V m c main_v40 : S6x2560.Idx → EReal)

theorem product_apply (c : Dev nD) (i : S65536x2560.Idx) :
    product m c i = Cert.Spec.prod6At (V m c main_v42 : S65536x6.Idx → EReal) (V m c main_v40 : S6x2560.Idx → EReal) (i 0) (i 1) := rfl

/-- What point `t` writes back is block `t` of the product of the two arrays as the region finds them. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after0_2, out_eq]
  obtain ⟨e00, e01, e10, e11, e20, e21⟩ := block_indices t
  have hN : cfg0.N = 128 := N_0
  have ht : t.val < 128 := hN ▸ t.isLt
  funext y
  obtain ⟨p, q, rfl⟩ : ∃ (p : Fin 512) (q : Fin 2560), y = ix2 p q := ⟨y 0, y 1, eq_ix2 y⟩
  rw [View.read_apply, product_apply]
  refine entry_eq_prod (V m c main_v42 : S65536x6.Idx → EReal) (V m c main_v40 : S6x2560.Idx → EReal) (iblk m c 0 t) (iblk m c 1 t) p q
    (((cfg0.win 2).blk t).view.emb (ix2 p q)) (fun k => ?_) (fun k => ?_)
  · show (V m c main_v42 : S65536x6.Idx → EReal) (((cfg0.win 0).blk t).view.emb (ix2 p k)) = _
    refine congrArg _ (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 6 + 1 * k.val = k.val; omega
  · show (V m c main_v40 : S6x2560.Idx → EReal) (((cfg0.win 1).blk t).view.emb (ix2 k q)) = _
    refine congrArg _ (funext fun a => Fin.ext ?_)
    match a with
    | ⟨0, _⟩ => show win0_1.index t (0 : Fin 2) * 6 + 1 * k.val = k.val; omega
    | ⟨1, _⟩ => show win0_1.index t (1 : Fin 2) * 2560 + 1 * q.val = win0_2.index t (1 : Fin 2) * 2560 + 1 * q.val; omega

/-! ## The blocks cover the result -/

/-- An index of the result is in point `t`'s block iff each coordinate is in the block's range on its axis. -/
theorem mem_blk (t : Fin cfg0.N) (i : S65536x2560.Idx) :
    i ∈ ((cfg0.win 2).blk t).view.set ↔ ∀ a : Fin 2, win0_2.index t a * S512x2560.size a ≤ (i a).val ∧ (i a).val < win0_2.index t a * S512x2560.size a + S512x2560.size a := by
  show i ∈ ((View.whole main_v43).slice (win0_2.rect t)).set ↔ _
  rw [View.set_slice_whole, Rect.mem_set_unit]
  exact Iff.rfl

/-- Row `r` lies in the block of point `r / 512`, which is written back. -/
theorem covered (i : S65536x2560.Idx) :
    ∃ t : Fin cfg0.N, (cfg0.win 2).flush t = true ∧ i ∈ ((cfg0.win 2).blk t).view.set := by
  have hN : cfg0.N = 128 := N_0
  have hi0 : (i 0).val < 65536 := (i 0).isLt
  have hi1 : (i 1).val < 2560 := (i 1).isLt
  let t : Fin cfg0.N := ⟨(i 0).val / 512, by rw [hN]; omega⟩
  obtain ⟨-, -, -, -, e20, e21⟩ := block_indices t
  have ht : t.val = (i 0).val / 512 := rfl
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2560 ≤ (i 1).val ∧ (i 1).val < win0_2.index t (1 : Fin 2) * 2560 + 2560; omega

/-- The result array after the run: the product of the two arrays the region found. -/
theorem final (c : Dev nD) : (dats m 0 c).arrAt 2 cfg0.N = product m c :=
  (dats m 0 c).arrAt_eq_of_cover 2 (product m c) (fun t _ => flushed_eq m c t) (covered)

/-! ## The run, read -/

/-- Every weakly fair execution of @main terminates with the result array at the product of the two arrays the region
    found and the ten argument arrays unchanged. -/
theorem run : θ_run defs (onTc (τ := τ) (main (F := Ideal))) ⟨m, fun _ => 0, ρ⟩ fun r => ∀ c : Dev nD,
      r.2.mem ((c.tc : Thread nD τ).loc main_v43) = product m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 2).trans (final m c), args_kept m (dats m) r h c⟩) (run_main m ρ)

end Cert.KernelIdeal.Blocks

end
-- ==== Proof.HostLeft.lean ====
/-
  The left operand the region finds: `x` with a column of ones appended.

  Two host operations build it: a scalar `1.0` broadcast to a 65536 × 1 column, and the concatenation of `x`
  (65536 × 5) with that column along the second axis. Read at row `r`, column `k`: for `k < 5` the position falls in
  the first piece and the entry is `x (r, k)`; for `k = 5` it falls in the second piece, at its only column, and the
  entry is the constant, whose bit pattern denotes the real number one.
-/
import proofs.«169781_j24704651887296_2_alg».proof.Proof.FrameKernelIdeal
import proofs.«169781_j24704651887296_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HostLeft

open Cert.KernelIdeal Cert.KernelIdeal.Gen Cert.KernelIdeal.Frame
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The single-precision pattern of `1.0` denotes the real number one. -/
theorem one_pattern : Ideal.ofBits .f32 0x3F800000#32 = 1 := by
  simp [Ideal.ofBits, Ideal.ieee, -EReal.coe_mul]; norm_num

/-- The two host operations as one function of `x`. -/
def padded (x : FVec Ideal S65536x5 .f32) : FVec Ideal S65536x6 .f32 :=
  concatenate S65536x6 1 [⟨S65536x5, x⟩, ⟨S65536x1, broadcastInDim S65536x1 ![] Facts₀.bcast_S_S65536x1 (constant (F := Ideal) S_ .f32 0x3F800000#32)⟩]
    Facts₀.concatenates_S65536x5_S65536x1_S65536x6_d1

/-- The left array as the region finds it is that function of the launched `x`. -/
theorem entry_eq (c : Dev nD) :
    (V m c main_v42 : S65536x6.Idx → EReal) = padded (m ((c : Thread nD τ).loc main_arg0)) := by
  dsimp only [V, hostOps0]
  after_results_simp <;> rfl

/-- Entry (r, k): `x (r, k)` for `k < 5`, one for `k = 5`. -/
theorem padded_apply (x : FVec Ideal S65536x5 .f32) (r : Fin 65536) (k : Fin 6) :
    padded x (ix2 r k) = Cert.Spec.x6At x r k := by
  unfold padded Cert.Spec.x6At
  by_cases h : k.val < 5
  · rw [dif_pos h]
    exact concatenate_pair_apply_left (t := S65536x6) (s₁ := S65536x5) (s₂ := S65536x1) (1 : Fin 2) _ _
      Facts₀.concatenates_S65536x5_S65536x1_S65536x6_d1 (ix2 r k) rfl
      (ix2 r (⟨k.val, h⟩ : Fin 5)) (fun b => match b with | ⟨0, _⟩ => rfl | ⟨1, _⟩ => rfl)
  · rw [dif_neg h]
    have hk : k.val = 5 := by have := k.isLt; omega
    rw [concatenate_pair_apply_right (t := S65536x6) (s₁ := S65536x5) (s₂ := S65536x1) (1 : Fin 2) _ _
      Facts₀.concatenates_S65536x5_S65536x1_S65536x6_d1 (ix2 r k) rfl rfl
      (ix2 r (0 : Fin 1)) (fun b hb => match b, hb with | ⟨0, _⟩, _ => rfl | ⟨1, _⟩, hb => absurd rfl hb)
      (by show 0 + 5 = k.val; omega)]
    rw [broadcastInDim_apply _ Facts₀.bcast_S_S65536x1 _ _ ix0 (fun a => a.elim0)]
    exact one_pattern

/-- The left array as the region finds it is `x` with a column of ones. -/
theorem lhs_eq (c : Dev nD) :
    (V m c main_v42 : S65536x6.Idx → EReal) = Cert.Spec.X6spec (m ((c : Thread nD τ).loc main_arg0)) := by
  rw [entry_eq]
  funext i
  obtain ⟨r, k, rfl⟩ : ∃ (r : Fin 65536) (k : Fin 6), i = ix2 r k := ⟨i 0, i 1, eq_ix2 i⟩
  exact padded_apply _ r k

end Cert.KernelIdeal.HostLeft

end
-- ==== Proof.HostWeights.lean ====
/-
  The right operand of the matrix product, as the region finds it, is the 6 × 2560 matrix of the specification.

  Forty of the host operations build it. Five weight vectors (the second used twice) are stacked as the rows of a
  5 × 512 matrix; its entry (k, e) is repeated along a new last axis of length 5 and multiplied by the 5 × 5 identity
  matrix at (k, q), which gives a 5 × 512 × 5 array holding w_k (e) · δ (k, q); read row-major as 5 × 2560 its
  column c is the pair (e, q) = (c / 5, c % 5). Five bias vectors, each with one row of the order table added, become
  the five columns of a 512 × 5 matrix, which read row-major is one row of 2560 entries, entry c being
  b_q (e) + table (q, e). That row is appended under the five rows above.

  The proof has two steps: the buffer is the composed term of the operations at the argument arrays (read off the
  list of operations), and that term at an index is the specification's entry (one layout operation at a time).
-/
import proofs.«169781_j24704651887296_2_alg».proof.Proof.FrameKernelIdeal
import proofs.«169781_j24704651887296_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostWeights

open Cert.KernelIdeal Cert.KernelIdeal.Gen Cert.KernelIdeal.Frame Idealize.ShloMosaic Idealize.ShloMosaic.TcCoe Idealize.SL.Sem Idealize.ShloMosaic.StableHlo Idealize.ShloMosaic.ValueIdx

/-! ## The operations' term -/

/-- A vector of 512 entries as a 1 × 512 row. -/
def rowOf (x : FVec Ideal S512 .f32) : FVec Ideal S1x512 .f32 :=
  broadcastInDim S1x512 ![1] Facts₀.bcast_S512_S1x512_1 x

/-- The five weight vectors (the second used twice) stacked as the rows of a 5 × 512 matrix. -/
def stackW (x1 x3 x5 x7 : FVec Ideal S512 .f32) : FVec Ideal S5x512 .f32 :=
  concatenate S5x512 0 [⟨S1x512, rowOf x1⟩, ⟨S1x512, rowOf x3⟩, ⟨S1x512, rowOf x3⟩, ⟨S1x512, rowOf x5⟩, ⟨S1x512, rowOf x7⟩]
    Facts₀.concatenates_S1x512_S1x512_S1x512_S1x512_S1x512_S5x512_d0

/-- The 5 × 5 identity matrix as the operations build it: the comparison of the row number with the column number,
    converted to a number. -/
def eye5 : FVec Ideal S5x5 .f32 :=
  uitofp .f32 (cmpi .eq (addi (iotaInDim S5x5 32 0) (broadcastInDim S5x5 ![] Facts₀.bcast_S_S5x5 (constantI S_ 32 0#32))) (iotaInDim S5x5 32 1))

/-- The 5 × 512 × 5 array of products: the stacked weights repeated along the last axis times the identity repeated
    along the middle axis. -/
def prodW (x1 x3 x5 x7 : FVec Ideal S512 .f32) : FVec Ideal S5x512x5 .f32 :=
  mulf
    (broadcastInDim S5x512x5 ![0, 1, 2] Facts₀.bcast_S5x512x1_S5x512x5_0_1_2
      (broadcastInDim S5x512x1 ![0, 1] Facts₀.bcast_S5x512_S5x512x1_0_1 (stackW x1 x3 x5 x7)))
    (broadcastInDim S5x512x5 ![0, 1, 2] Facts₀.bcast_S5x1x5_S5x512x5_0_1_2
      (broadcastInDim S5x1x5 ![0, 2] Facts₀.bcast_S5x5_S5x1x5_0_2 eye5))

/-- A bias vector with the row of the order table at offset `off` added, as a 512 × 1 column. -/
def biasCol (b : FVec Ideal S512 .f32) (x9 : FVec Ideal S5x512 .f32) (off : Fin 2 → Nat) (h : S5x512.Slices off S1x512) :
    FVec Ideal S512x1 .f32 :=
  broadcastInDim S512x1 ![0] Facts₀.bcast_S512_S512x1_0
    (addf b (shapeCast S512 (extractStridedSlice S1x512 off x9 h) Facts₀.shapeCasts_S1x512_S512))

/-- The five bias columns side by side: a 512 × 5 matrix. -/
def biasMat (x2 x4 x6 x8 : FVec Ideal S512 .f32) (x9 : FVec Ideal S5x512 .f32) : FVec Ideal S512x5 .f32 :=
  concatenate S512x5 1 [⟨S512x1, biasCol x2 x9 ![0, 0] Facts₀.slices_S5x512_S1x512_0_0⟩, ⟨S512x1, biasCol x4 x9 ![1, 0] Facts₀.slices_S5x512_S1x512_1_0⟩,
      ⟨S512x1, biasCol x4 x9 ![2, 0] Facts₀.slices_S5x512_S1x512_2_0⟩, ⟨S512x1, biasCol x6 x9 ![3, 0] Facts₀.slices_S5x512_S1x512_3_0⟩,
      ⟨S512x1, biasCol x8 x9 ![4, 0] Facts₀.slices_S5x512_S1x512_4_0⟩]
    Facts₀.concatenates_S512x1_S512x1_S512x1_S512x1_S512x1_S512x5_d1

/-- The right operand as the operations compose it: the products read as 5 × 2560, over the biases read as 1 × 2560. -/
def W6ops (x1 x2 x3 x4 x5 x6 x7 x8 : FVec Ideal S512 .f32) (x9 : FVec Ideal S5x512 .f32) : FVec Ideal S6x2560 .f32 :=
  concatenate S6x2560 0
    [⟨S5x2560, shapeCast S5x2560 (prodW x1 x3 x5 x7) Facts₀.shapeCasts_S5x512x5_S5x2560⟩,
     ⟨S1x2560, shapeCast S1x2560 (biasMat x2 x4 x6 x8 x9) Facts₀.shapeCasts_S512x5_S1x2560⟩]
    Facts₀.concatenates_S5x2560_S1x2560_S6x2560_d0

variable (m : (ℓ : Loc nD τ sig) → Buf (Elt Ideal) ℓ)

/-- The buffer the region finds is the operations' term at the argument arrays. -/
theorem V_eq_ops (c : Dev nD) :
    (V m c main_v40 : S6x2560.Idx → EReal)
      = W6ops (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  dsimp only [V, hostOps0]
  after_results_simp <;> rfl

/-! ## The pieces of the term at an index -/

/-- Five rows stacked, read in the first row: that row. -/
theorem stack_row0 (y0 y1 y2 y3 y4 : FVec Ideal S1x512 .f32) (e : Fin 512) :
    concatenate S5x512 0 [⟨S1x512, y0⟩, ⟨S1x512, y1⟩, ⟨S1x512, y2⟩, ⟨S1x512, y3⟩, ⟨S1x512, y4⟩]
      Facts₀.concatenates_S1x512_S1x512_S1x512_S1x512_S1x512_S5x512_d0 (ix2 (0 : Fin 5) e) = y0 (ix2 (0 : Fin 1) e) :=
  concatenate_apply_piece (0 : Fin S5x512.rank) [⟨S1x512, y0⟩, ⟨S1x512, y1⟩, ⟨S1x512, y2⟩, ⟨S1x512, y3⟩, ⟨S1x512, y4⟩] _ (ix2 (0 : Fin 5) e) 0 (by simp) S1x512 y0 rfl rfl 0 rfl
    (ix2 (0 : Fin 1) e)
    (fun b hb => match b with | ⟨0, _⟩ => absurd rfl hb | ⟨1, _⟩ => rfl)
    rfl
/-- Five rows stacked, read in the second row: that row. -/
theorem stack_row1 (y0 y1 y2 y3 y4 : FVec Ideal S1x512 .f32) (e : Fin 512) :
    concatenate S5x512 0 [⟨S1x512, y0⟩, ⟨S1x512, y1⟩, ⟨S1x512, y2⟩, ⟨S1x512, y3⟩, ⟨S1x512, y4⟩]
      Facts₀.concatenates_S1x512_S1x512_S1x512_S1x512_S1x512_S5x512_d0 (ix2 (1 : Fin 5) e) = y1 (ix2 (0 : Fin 1) e) :=
  concatenate_apply_piece (0 : Fin S5x512.rank) [⟨S1x512, y0⟩, ⟨S1x512, y1⟩, ⟨S1x512, y2⟩, ⟨S1x512, y3⟩, ⟨S1x512, y4⟩] _ (ix2 (1 : Fin 5) e) 1 (by simp) S1x512 y1 rfl rfl 1 rfl
    (ix2 (0 : Fin 1) e)
    (fun b hb => match b with | ⟨0, _⟩ => absurd rfl hb | ⟨1, _⟩ => rfl)
    rfl
/-- Five rows stacked, read in the third row: that row. -/
theorem stack_row2 (y0 y1 y2 y3 y4 : FVec Ideal S1x512 .f32) (e : Fin 512) :
    concatenate S5x512 0 [⟨S1x512, y0⟩, ⟨S1x512, y1⟩, ⟨S1x512, y2⟩, ⟨S1x512, y3⟩, ⟨S1x512, y4⟩]
      Facts₀.concatenates_S1x512_S1x512_S1x512_S1x512_S1x512_S5x512_d0 (ix2 (2 : Fin 5) e) = y2 (ix2 (0 : Fin 1) e) :=
  concatenate_apply_piece (0 : Fin S5x512.rank) [⟨S1x512, y0⟩, ⟨S1x512, y1⟩, ⟨S1x512, y2⟩, ⟨S1x512, y3⟩, ⟨S1x512, y4⟩] _ (ix2 (2 : Fin 5) e) 2 (by simp) S1x512 y2 rfl rfl 2 rfl
    (ix2 (0 : Fin 1) e)
    (fun b hb => match b with | ⟨0, _⟩ => absurd rfl hb | ⟨1, _⟩ => rfl)
    rfl
/-- Five rows stacked, read in the fourth row: that row. -/
theorem stack_row3 (y0 y1 y2 y3 y4 : FVec Ideal S1x512 .f32) (e : Fin 512) :
    concatenate S5x512 0 [⟨S1x512, y0⟩, ⟨S1x512, y1⟩, ⟨S1x512, y2⟩, ⟨S1x512, y3⟩, ⟨S1x512, y4⟩]
      Facts₀.concatenates_S1x512_S1x512_S1x512_S1x512_S1x512_S5x512_d0 (ix2 (3 : Fin 5) e) = y3 (ix2 (0 : Fin 1) e) :=
  concatenate_apply_piece (0 : Fin S5x512.rank) [⟨S1x512, y0⟩, ⟨S1x512, y1⟩, ⟨S1x512, y2⟩, ⟨S1x512, y3⟩, ⟨S1x512, y4⟩] _ (ix2 (3 : Fin 5) e) 3 (by simp) S1x512 y3 rfl rfl 3 rfl
    (ix2 (0 : Fin 1) e)
    (fun b hb => match b with | ⟨0, _⟩ => absurd rfl hb | ⟨1, _⟩ => rfl)
    rfl
/-- Five rows stacked, read in the fifth row: that row. -/
theorem stack_row4 (y0 y1 y2 y3 y4 : FVec Ideal S1x512 .f32) (e : Fin 512) :
    concatenate S5x512 0 [⟨S1x512, y0⟩, ⟨S1x512, y1⟩, ⟨S1x512, y2⟩, ⟨S1x512, y3⟩, ⟨S1x512, y4⟩]
      Facts₀.concatenates_S1x512_S1x512_S1x512_S1x512_S1x512_S5x512_d0 (ix2 (4 : Fin 5) e) = y4 (ix2 (0 : Fin 1) e) :=
  concatenate_apply_piece (0 : Fin S5x512.rank) [⟨S1x512, y0⟩, ⟨S1x512, y1⟩, ⟨S1x512, y2⟩, ⟨S1x512, y3⟩, ⟨S1x512, y4⟩] _ (ix2 (4 : Fin 5) e) 4 (by simp) S1x512 y4 rfl rfl 4 rfl
    (ix2 (0 : Fin 1) e)
    (fun b hb => match b with | ⟨0, _⟩ => absurd rfl hb | ⟨1, _⟩ => rfl)
    rfl

/-- Five columns side by side, read in the first column: that column. -/
theorem cols_col0 (y0 y1 y2 y3 y4 : FVec Ideal S512x1 .f32) (e : Fin 512) :
    concatenate S512x5 1 [⟨S512x1, y0⟩, ⟨S512x1, y1⟩, ⟨S512x1, y2⟩, ⟨S512x1, y3⟩, ⟨S512x1, y4⟩]
      Facts₀.concatenates_S512x1_S512x1_S512x1_S512x1_S512x1_S512x5_d1 (ix2 e (0 : Fin 5)) = y0 (ix2 e (0 : Fin 1)) :=
  concatenate_apply_piece (1 : Fin S512x5.rank) [⟨S512x1, y0⟩, ⟨S512x1, y1⟩, ⟨S512x1, y2⟩, ⟨S512x1, y3⟩, ⟨S512x1, y4⟩] _ (ix2 e (0 : Fin 5)) 0 (by simp) S512x1 y0 rfl rfl 0 rfl
    (ix2 e (0 : Fin 1))
    (fun b hb => match b with | ⟨0, _⟩ => rfl | ⟨1, _⟩ => absurd rfl hb)
    rfl
/-- Five columns side by side, read in the second column: that column. -/
theorem cols_col1 (y0 y1 y2 y3 y4 : FVec Ideal S512x1 .f32) (e : Fin 512) :
    concatenate S512x5 1 [⟨S512x1, y0⟩, ⟨S512x1, y1⟩, ⟨S512x1, y2⟩, ⟨S512x1, y3⟩, ⟨S512x1, y4⟩]
      Facts₀.concatenates_S512x1_S512x1_S512x1_S512x1_S512x1_S512x5_d1 (ix2 e (1 : Fin 5)) = y1 (ix2 e (0 : Fin 1)) :=
  concatenate_apply_piece (1 : Fin S512x5.rank) [⟨S512x1, y0⟩, ⟨S512x1, y1⟩, ⟨S512x1, y2⟩, ⟨S512x1, y3⟩, ⟨S512x1, y4⟩] _ (ix2 e (1 : Fin 5)) 1 (by simp) S512x1 y1 rfl rfl 1 rfl
    (ix2 e (0 : Fin 1))
    (fun b hb => match b with | ⟨0, _⟩ => rfl | ⟨1, _⟩ => absurd rfl hb)
    rfl
/-- Five columns side by side, read in the third column: that column. -/
theorem cols_col2 (y0 y1 y2 y3 y4 : FVec Ideal S512x1 .f32) (e : Fin 512) :
    concatenate S512x5 1 [⟨S512x1, y0⟩, ⟨S512x1, y1⟩, ⟨S512x1, y2⟩, ⟨S512x1, y3⟩, ⟨S512x1, y4⟩]
      Facts₀.concatenates_S512x1_S512x1_S512x1_S512x1_S512x1_S512x5_d1 (ix2 e (2 : Fin 5)) = y2 (ix2 e (0 : Fin 1)) :=
  concatenate_apply_piece (1 : Fin S512x5.rank) [⟨S512x1, y0⟩, ⟨S512x1, y1⟩, ⟨S512x1, y2⟩, ⟨S512x1, y3⟩, ⟨S512x1, y4⟩] _ (ix2 e (2 : Fin 5)) 2 (by simp) S512x1 y2 rfl rfl 2 rfl
    (ix2 e (0 : Fin 1))
    (fun b hb => match b with | ⟨0, _⟩ => rfl | ⟨1, _⟩ => absurd rfl hb)
    rfl
/-- Five columns side by side, read in the fourth column: that column. -/
theorem cols_col3 (y0 y1 y2 y3 y4 : FVec Ideal S512x1 .f32) (e : Fin 512) :
    concatenate S512x5 1 [⟨S512x1, y0⟩, ⟨S512x1, y1⟩, ⟨S512x1, y2⟩, ⟨S512x1, y3⟩, ⟨S512x1, y4⟩]
      Facts₀.concatenates_S512x1_S512x1_S512x1_S512x1_S512x1_S512x5_d1 (ix2 e (3 : Fin 5)) = y3 (ix2 e (0 : Fin 1)) :=
  concatenate_apply_piece (1 : Fin S512x5.rank) [⟨S512x1, y0⟩, ⟨S512x1, y1⟩, ⟨S512x1, y2⟩, ⟨S512x1, y3⟩, ⟨S512x1, y4⟩] _ (ix2 e (3 : Fin 5)) 3 (by simp) S512x1 y3 rfl rfl 3 rfl
    (ix2 e (0 : Fin 1))
    (fun b hb => match b with | ⟨0, _⟩ => rfl | ⟨1, _⟩ => absurd rfl hb)
    rfl
/-- Five columns side by side, read in the fifth column: that column. -/
theorem cols_col4 (y0 y1 y2 y3 y4 : FVec Ideal S512x1 .f32) (e : Fin 512) :
    concatenate S512x5 1 [⟨S512x1, y0⟩, ⟨S512x1, y1⟩, ⟨S512x1, y2⟩, ⟨S512x1, y3⟩, ⟨S512x1, y4⟩]
      Facts₀.concatenates_S512x1_S512x1_S512x1_S512x1_S512x1_S512x5_d1 (ix2 e (4 : Fin 5)) = y4 (ix2 e (0 : Fin 1)) :=
  concatenate_apply_piece (1 : Fin S512x5.rank) [⟨S512x1, y0⟩, ⟨S512x1, y1⟩, ⟨S512x1, y2⟩, ⟨S512x1, y3⟩, ⟨S512x1, y4⟩] _ (ix2 e (4 : Fin 5)) 4 (by simp) S512x1 y4 rfl rfl 4 rfl
    (ix2 e (0 : Fin 1))
    (fun b hb => match b with | ⟨0, _⟩ => rfl | ⟨1, _⟩ => absurd rfl hb)
    rfl

/-- A vector as a 1 × 512 row, read at (0, e): the vector at e. -/
theorem rowOf_apply (x : FVec Ideal S512 .f32) (e : Fin 512) : rowOf x (ix2 (0 : Fin 1) e) = x (ix1 e) :=
  broadcastInDim_apply _ Facts₀.bcast_S512_S1x512_1 x (ix2 (0 : Fin 1) e) (ix1 e) (fun a => match a with
    | ⟨0, _⟩ => by show e.val = if (512 : Nat) = 1 then 0 else e.val; rw [if_neg (by decide)])

/-- A bias column read at (e, 0): the bias at e plus the order table at (r, e), r the row the slice starts at. -/
theorem biasCol_apply (b : FVec Ideal S512 .f32) (x9 : FVec Ideal S5x512 .f32) (r : Nat) (hr : r < 5)
    (h : S5x512.Slices ![r, 0] S1x512) (e : Fin 512) :
    biasCol b x9 ![r, 0] h (ix2 e (0 : Fin 1)) = b (ix1 e) + x9 (ix2 (⟨r, hr⟩ : Fin 5) e) := by
  unfold biasCol
  refine (broadcastInDim_apply _ Facts₀.bcast_S512_S512x1_0 _ (ix2 e (0 : Fin 1)) (ix1 e) (fun a => match a with
    | ⟨0, _⟩ => by show e.val = if (512 : Nat) = 1 then 0 else e.val; rw [if_neg (by decide)])).trans ?_
  rw [addf_apply]
  refine congrArg (b (ix1 e) + ·) ?_
  refine (shapeCast_apply _ Facts₀.shapeCasts_S1x512_S512 (ix1 e) (ix2 (0 : Fin 1) e)
    (by rewrite [Shape.rowMajor_val_two, Shape.rowMajor_val_one]; show 0 * 512 + e.val = e.val; omega)).trans ?_
  exact extractStridedSlice_apply ![r, 0] x9 h (ix2 (0 : Fin 1) e) (ix2 (⟨r, hr⟩ : Fin 5) e) (fun a => match a with
    | ⟨0, _⟩ => by show r = r + 0; omega
    | ⟨1, _⟩ => by show e.val = 0 + e.val; omega)

/-- The comparison of the row number with the column number, as a bit. -/
theorem eyeBit_apply (k q : Fin 5) :
    cmpi .eq (addi (iotaInDim S5x5 32 0) (broadcastInDim S5x5 ![] Facts₀.bcast_S_S5x5 (constantI S_ 32 0#32))) (iotaInDim S5x5 32 1) (ix2 k q)
      = if k.val = q.val then 1#1 else 0#1 := by
  fin_cases k <;> fin_cases q <;> rfl

/-- The identity matrix at (k, q): 1 on the diagonal, 0 off it. -/
theorem eye5_apply (k q : Fin 5) : eye5 (ix2 k q) = if k.val = q.val then 1 else 0 := by
  have h : eye5 (ix2 k q)
      = (((cmpi .eq (addi (iotaInDim S5x5 32 0) (broadcastInDim S5x5 ![] Facts₀.bcast_S_S5x5 (constantI S_ 32 0#32))) (iotaInDim S5x5 32 1)
            (ix2 k q)).toNat : ℝ) : EReal) := rfl
  rw [h, eyeBit_apply]
  by_cases hkq : k.val = q.val
  · rw [if_pos hkq, if_pos hkq]; simp
  · rw [if_neg hkq, if_neg hkq]; simp

/-- A 5 × 512 matrix repeated along a new last axis of length 5, read at (k, e, q): the matrix at (k, e). -/
theorem alongLast_apply (y : FVec Ideal S5x512 .f32) (k : Fin 5) (e : Fin 512) (q : Fin 5) :
    broadcastInDim S5x512x5 ![0, 1, 2] Facts₀.bcast_S5x512x1_S5x512x5_0_1_2
      (broadcastInDim S5x512x1 ![0, 1] Facts₀.bcast_S5x512_S5x512x1_0_1 y) (ix3 k e q) = y (ix2 k e) := by
  refine (broadcastInDim_apply _ Facts₀.bcast_S5x512x1_S5x512x5_0_1_2 _ (ix3 k e q) (ix3 k e (0 : Fin 1)) (fun a => match a with
    | ⟨0, _⟩ => by show k.val = if (5 : Nat) = 1 then 0 else k.val; rw [if_neg (by decide)]
    | ⟨1, _⟩ => by show e.val = if (512 : Nat) = 1 then 0 else e.val; rw [if_neg (by decide)]
    | ⟨2, _⟩ => by show 0 = if (1 : Nat) = 1 then 0 else q.val; rw [if_pos rfl])).trans ?_
  exact broadcastInDim_apply _ Facts₀.bcast_S5x512_S5x512x1_0_1 y (ix3 k e (0 : Fin 1)) (ix2 k e) (fun a => match a with
    | ⟨0, _⟩ => by show k.val = if (5 : Nat) = 1 then 0 else k.val; rw [if_neg (by decide)]
    | ⟨1, _⟩ => by show e.val = if (512 : Nat) = 1 then 0 else e.val; rw [if_neg (by decide)])

/-- A 5 × 5 matrix repeated along a new middle axis of length 512, read at (k, e, q): the matrix at (k, q). -/
theorem alongMiddle_apply (z : FVec Ideal S5x5 .f32) (k : Fin 5) (e : Fin 512) (q : Fin 5) :
    broadcastInDim S5x512x5 ![0, 1, 2] Facts₀.bcast_S5x1x5_S5x512x5_0_1_2
      (broadcastInDim S5x1x5 ![0, 2] Facts₀.bcast_S5x5_S5x1x5_0_2 z) (ix3 k e q) = z (ix2 k q) := by
  refine (broadcastInDim_apply _ Facts₀.bcast_S5x1x5_S5x512x5_0_1_2 _ (ix3 k e q) (ix3 k (0 : Fin 1) q) (fun a => match a with
    | ⟨0, _⟩ => by show k.val = if (5 : Nat) = 1 then 0 else k.val; rw [if_neg (by decide)]
    | ⟨1, _⟩ => by show 0 = if (1 : Nat) = 1 then 0 else e.val; rw [if_pos rfl]
    | ⟨2, _⟩ => by show q.val = if (5 : Nat) = 1 then 0 else q.val; rw [if_neg (by decide)])).trans ?_
  exact broadcastInDim_apply _ Facts₀.bcast_S5x5_S5x1x5_0_2 z (ix3 k (0 : Fin 1) q) (ix2 k q) (fun a => match a with
    | ⟨0, _⟩ => by show k.val = if (5 : Nat) = 1 then 0 else k.val; rw [if_neg (by decide)]
    | ⟨1, _⟩ => by show q.val = if (5 : Nat) = 1 then 0 else q.val; rw [if_neg (by decide)])

section Args
variable (x1 x2 x3 x4 x5 x6 x7 x8 : FVec Ideal S512 .f32) (x9 : FVec Ideal S5x512 .f32)

/-- The stacked weights at (k, e): source k's weight at e. -/
theorem stackW_apply (k : Fin 5) (e : Fin 512) : stackW x1 x3 x5 x7 (ix2 k e) = Cert.Spec.wSel x1 x3 x5 x7 k (ix1 e) := by
  unfold stackW
  match k with
  | ⟨0, _⟩ => exact (stack_row0 _ _ _ _ _ e).trans (rowOf_apply x1 e)
  | ⟨1, _⟩ => exact (stack_row1 _ _ _ _ _ e).trans (rowOf_apply x3 e)
  | ⟨2, _⟩ => exact (stack_row2 _ _ _ _ _ e).trans (rowOf_apply x3 e)
  | ⟨3, _⟩ => exact (stack_row3 _ _ _ _ _ e).trans (rowOf_apply x5 e)
  | ⟨4, _⟩ => exact (stack_row4 _ _ _ _ _ e).trans (rowOf_apply x7 e)

/-- The bias matrix at (e, q): source q's bias at e plus the order table at (q, e). -/
theorem biasMat_apply (e : Fin 512) (q : Fin 5) :
    biasMat x2 x4 x6 x8 x9 (ix2 e q) = Cert.Spec.bSel x2 x4 x6 x8 q (ix1 e) + x9 (ix2 q e) := by
  unfold biasMat
  match q with
  | ⟨0, _⟩ => exact (cols_col0 _ _ _ _ _ e).trans (biasCol_apply x2 x9 0 (by omega) _ e)
  | ⟨1, _⟩ => exact (cols_col1 _ _ _ _ _ e).trans (biasCol_apply x4 x9 1 (by omega) _ e)
  | ⟨2, _⟩ => exact (cols_col2 _ _ _ _ _ e).trans (biasCol_apply x4 x9 2 (by omega) _ e)
  | ⟨3, _⟩ => exact (cols_col3 _ _ _ _ _ e).trans (biasCol_apply x6 x9 3 (by omega) _ e)
  | ⟨4, _⟩ => exact (cols_col4 _ _ _ _ _ e).trans (biasCol_apply x8 x9 4 (by omega) _ e)

/-- The array of products at (k, e, q): source k's weight at e times the identity at (k, q). -/
theorem prodW_apply (k : Fin 5) (e : Fin 512) (q : Fin 5) :
    prodW x1 x3 x5 x7 (ix3 k e q) = Cert.Spec.wSel x1 x3 x5 x7 k (ix1 e) * (if k.val = q.val then 1 else 0) :=
  (congrArg₂ (fun a b : EReal => a * b) (alongLast_apply (stackW x1 x3 x5 x7) k e q) (alongMiddle_apply eye5 k e q)).trans
    (by rw [stackW_apply, eye5_apply])

/-! ## The term at an index is the specification's entry -/

/-- Rows 0 to 4: the products read row-major as 5 × 2560, column c the pair (c / 5, c % 5). -/
theorem W6ops_apply_lt (k : Fin 6) (hk : k.val < 5) (col : Fin 2560) :
    W6ops x1 x2 x3 x4 x5 x6 x7 x8 x9 (ix2 k col)
      = Cert.Spec.wSel x1 x3 x5 x7 ⟨k.val, hk⟩ (ix1 (Cert.Spec.feat col)) * (if k.val = (Cert.Spec.src col).val then 1 else 0) := by
  unfold W6ops
  refine (concatenate_pair_apply_left (0 : Fin S6x2560.rank) _ _ Facts₀.concatenates_S5x2560_S1x2560_S6x2560_d0 (ix2 k col) rfl
    (ix2 (⟨k.val, hk⟩ : Fin 5) col) (fun b => match b with | ⟨0, _⟩ => rfl | ⟨1, _⟩ => rfl)).trans ?_
  refine (shapeCast_apply _ Facts₀.shapeCasts_S5x512x5_S5x2560 (ix2 (⟨k.val, hk⟩ : Fin 5) col)
    (ix3 (⟨k.val, hk⟩ : Fin 5) (Cert.Spec.feat col) (Cert.Spec.src col))
    (by rewrite [Shape.rowMajor_val_three, Shape.rowMajor_val_two]
        show (k.val * 512 + col.val / 5) * 5 + col.val % 5 = k.val * 2560 + col.val
        omega)).trans ?_
  exact prodW_apply x1 x3 x5 x7 ⟨k.val, hk⟩ (Cert.Spec.feat col) (Cert.Spec.src col)

/-- Row 5: the bias matrix read row-major as 1 × 2560. -/
theorem W6ops_apply_five (k : Fin 6) (hk : ¬ k.val < 5) (col : Fin 2560) :
    W6ops x1 x2 x3 x4 x5 x6 x7 x8 x9 (ix2 k col)
      = Cert.Spec.bSel x2 x4 x6 x8 (Cert.Spec.src col) (ix1 (Cert.Spec.feat col)) + x9 (ix2 (Cert.Spec.src col) (Cert.Spec.feat col)) := by
  have hk5 : k.val = 5 := by have := k.isLt; omega
  unfold W6ops
  refine (concatenate_pair_apply_right (0 : Fin S6x2560.rank) _ _ Facts₀.concatenates_S5x2560_S1x2560_S6x2560_d0 (ix2 k col) rfl rfl
    (ix2 (0 : Fin 1) col) (fun b hb => match b with | ⟨0, _⟩ => absurd rfl hb | ⟨1, _⟩ => rfl)
    (by show 0 + 5 = k.val; omega)).trans ?_
  refine (shapeCast_apply _ Facts₀.shapeCasts_S512x5_S1x2560 (ix2 (0 : Fin 1) col) (ix2 (Cert.Spec.feat col) (Cert.Spec.src col))
    (by rewrite [Shape.rowMajor_val_two, Shape.rowMajor_val_two]
        show col.val / 5 * 5 + col.val % 5 = 0 * 2560 + col.val
        omega)).trans ?_
  exact biasMat_apply x2 x4 x6 x8 x9 (Cert.Spec.feat col) (Cert.Spec.src col)

/-- The operations' term at (k, c) is the specification's entry. -/
theorem W6ops_apply (k : Fin 6) (col : Fin 2560) :
    W6ops x1 x2 x3 x4 x5 x6 x7 x8 x9 (ix2 k col) = Cert.Spec.w6At x1 x2 x3 x4 x5 x6 x7 x8 x9 k col := by
  unfold Cert.Spec.w6At
  by_cases hk : k.val < 5
  · rw [dif_pos hk]; exact W6ops_apply_lt x1 x2 x3 x4 x5 x6 x7 x8 x9 k hk col
  · rw [dif_neg hk]; exact W6ops_apply_five x1 x2 x3 x4 x5 x6 x7 x8 x9 k hk col

end Args

/-! ## The buffer is the specification's matrix -/

/-- The 6 × 2560 right operand the region finds is the specification's. -/
theorem rhs_eq (c : Dev nD) :
    (V m c main_v40 : S6x2560.Idx → EReal)
      = Cert.Spec.W6spec (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (V_eq_ops m c).trans ?_
  funext j
  obtain ⟨k, col, rfl⟩ : ∃ (k : Fin 6) (col : Fin 2560), j = ix2 k col := ⟨j 0, j 1, eq_ix2 j⟩
  exact W6ops_apply _ _ _ _ _ _ _ _ _ k col

end Cert.KernelIdeal.HostWeights

end
-- ==== Proof.RefValue.lean ====
/-
  The reference's result is `G`.

  The reference computes, for each of the five sources `q`, the 65536 × 512 array
      A_q (r, e) = x (r, q) · w_q (e) + (b_q (e) + table (q, e)),
  stacks the five arrays along a new last axis into a 65536 × 512 × 5 array, and flattens the last two axes into the
  2560 = 512 · 5 columns of the result. Column `c` of row `r` is therefore entry (r, c / 5, c % 5) of the stack: the
  flat position r · 2560 + c has quotient r by 2560, and (r · 2560 + c) / 5 % 512 = c / 5, (r · 2560 + c) % 5 = c % 5.
  That entry is A_q (r, e) for e = c / 5 and q = c % 5, which is `G (r, c)`.
-/
import proofs.«169781_j24704651887296_2_alg».proof.Proof.Gen.ReferenceIdeal.Read
import proofs.«169781_j24704651887296_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Read Idealize.ShloMosaic Idealize.ShloMosaic.ValueIdx

/-- Source 0 at row `r`, feature `e`: column 0 of `x` times the weight, plus the bias plus row 0 of the table. -/
theorem stage_q0 (x0 : FVec Ideal S65536x5 .f32) (x1 x2 : FVec Ideal S512 .f32) (x9 : FVec Ideal S5x512 .f32)
    (r : Fin 65536) (e : Fin 512) :
    val_main_v10 (F := Ideal) x0 x1 x2 x9 (ix2 r e)
      = x0 (ix2 r 0) * x1 (ix1 e) + (x2 (ix1 e) + x9 (ix2 0 e)) := by
  rw [val_main_v10_apply, val_main_v4_apply, val_main_v2_apply, val_main_v0_apply, val_main_v3_apply,
    val_main_v1_apply, val_main_v9_apply, val_main_v8_apply, val_main_v7_apply, val_main_v6_apply,
    val_main_v5_apply]
  have hx : idx_main_v0 (idx_main_v2 (ix2 r e)) = ix2 r 0 := by
    funext a; match a with | ⟨0, _⟩ => rfl | ⟨1, _⟩ => rfl
  have hw : idx_main_v1 (idx_main_v3 (ix2 r e)) = ix1 e := by
    funext a; match a with | ⟨0, _⟩ => rfl
  have hb : idx_main_v8 (idx_main_v9 (ix2 r e)) = ix1 e := by
    funext a; match a with | ⟨0, _⟩ => rfl
  have ht : idx_main_v5 (idx_main_v6 (ix1 e)) = ix2 0 e := by
    funext a; match a with
    | ⟨0, _⟩ => rfl
    | ⟨1, _⟩ => exact Fin.ext (Nat.mod_eq_of_lt e.isLt)
  rw [hx, hw, hb, ht]
  rfl

/-- Source 1 at row `r`, feature `e`: column 1 of `x` times the weight, plus the bias plus row 1 of the table. -/
theorem stage_q1 (x0 : FVec Ideal S65536x5 .f32) (x3 x4 : FVec Ideal S512 .f32) (x9 : FVec Ideal S5x512 .f32)
    (r : Fin 65536) (e : Fin 512) :
    val_main_v21 (F := Ideal) x0 x3 x4 x9 (ix2 r e)
      = x0 (ix2 r 1) * x3 (ix1 e) + (x4 (ix1 e) + x9 (ix2 1 e)) := by
  rw [val_main_v21_apply, val_main_v15_apply, val_main_v13_apply, val_main_v11_apply, val_main_v14_apply,
    val_main_v12_apply, val_main_v20_apply, val_main_v19_apply, val_main_v18_apply, val_main_v17_apply,
    val_main_v16_apply]
  have hx : idx_main_v11 (idx_main_v13 (ix2 r e)) = ix2 r 1 := by
    funext a; match a with | ⟨0, _⟩ => rfl | ⟨1, _⟩ => rfl
  have hw : idx_main_v12 (idx_main_v14 (ix2 r e)) = ix1 e := by
    funext a; match a with | ⟨0, _⟩ => rfl
  have hb : idx_main_v19 (idx_main_v20 (ix2 r e)) = ix1 e := by
    funext a; match a with | ⟨0, _⟩ => rfl
  have ht : idx_main_v16 (idx_main_v17 (ix1 e)) = ix2 1 e := by
    funext a; match a with
    | ⟨0, _⟩ => rfl
    | ⟨1, _⟩ => exact Fin.ext (Nat.mod_eq_of_lt e.isLt)
  rw [hx, hw, hb, ht]
  rfl

/-- Source 2 at row `r`, feature `e`: column 2 of `x` times the weight, plus the bias plus row 2 of the table. -/
theorem stage_q2 (x0 : FVec Ideal S65536x5 .f32) (x3 x4 : FVec Ideal S512 .f32) (x9 : FVec Ideal S5x512 .f32)
    (r : Fin 65536) (e : Fin 512) :
    val_main_v32 (F := Ideal) x0 x3 x4 x9 (ix2 r e)
      = x0 (ix2 r 2) * x3 (ix1 e) + (x4 (ix1 e) + x9 (ix2 2 e)) := by
  rw [val_main_v32_apply, val_main_v26_apply, val_main_v24_apply, val_main_v22_apply, val_main_v25_apply,
    val_main_v23_apply, val_main_v31_apply, val_main_v30_apply, val_main_v29_apply, val_main_v28_apply,
    val_main_v27_apply]
  have hx : idx_main_v22 (idx_main_v24 (ix2 r e)) = ix2 r 2 := by
    funext a; match a with | ⟨0, _⟩ => rfl | ⟨1, _⟩ => rfl
  have hw : idx_main_v23 (idx_main_v25 (ix2 r e)) = ix1 e := by
    funext a; match a with | ⟨0, _⟩ => rfl
  have hb : idx_main_v30 (idx_main_v31 (ix2 r e)) = ix1 e := by
    funext a; match a with | ⟨0, _⟩ => rfl
  have ht : idx_main_v27 (idx_main_v28 (ix1 e)) = ix2 2 e := by
    funext a; match a with
    | ⟨0, _⟩ => rfl
    | ⟨1, _⟩ => exact Fin.ext (Nat.mod_eq_of_lt e.isLt)
  rw [hx, hw, hb, ht]
  rfl

/-- Source 3 at row `r`, feature `e`: column 3 of `x` times the weight, plus the bias plus row 3 of the table. -/
theorem stage_q3 (x0 : FVec Ideal S65536x5 .f32) (x5 x6 : FVec Ideal S512 .f32) (x9 : FVec Ideal S5x512 .f32)
    (r : Fin 65536) (e : Fin 512) :
    val_main_v43 (F := Ideal) x0 x5 x6 x9 (ix2 r e)
      = x0 (ix2 r 3) * x5 (ix1 e) + (x6 (ix1 e) + x9 (ix2 3 e)) := by
  rw [val_main_v43_apply, val_main_v37_apply, val_main_v35_apply, val_main_v33_apply, val_main_v36_apply,
    val_main_v34_apply, val_main_v42_apply, val_main_v41_apply, val_main_v40_apply, val_main_v39_apply,
    val_main_v38_apply]
  have hx : idx_main_v33 (idx_main_v35 (ix2 r e)) = ix2 r 3 := by
    funext a; match a with | ⟨0, _⟩ => rfl | ⟨1, _⟩ => rfl
  have hw : idx_main_v34 (idx_main_v36 (ix2 r e)) = ix1 e := by
    funext a; match a with | ⟨0, _⟩ => rfl
  have hb : idx_main_v41 (idx_main_v42 (ix2 r e)) = ix1 e := by
    funext a; match a with | ⟨0, _⟩ => rfl
  have ht : idx_main_v38 (idx_main_v39 (ix1 e)) = ix2 3 e := by
    funext a; match a with
    | ⟨0, _⟩ => rfl
    | ⟨1, _⟩ => exact Fin.ext (Nat.mod_eq_of_lt e.isLt)
  rw [hx, hw, hb, ht]
  rfl

/-- Source 4 at row `r`, feature `e`: column 4 of `x` times the weight, plus the bias plus row 4 of the table. -/
theorem stage_q4 (x0 : FVec Ideal S65536x5 .f32) (x7 x8 : FVec Ideal S512 .f32) (x9 : FVec Ideal S5x512 .f32)
    (r : Fin 65536) (e : Fin 512) :
    val_main_v54 (F := Ideal) x0 x7 x8 x9 (ix2 r e)
      = x0 (ix2 r 4) * x7 (ix1 e) + (x8 (ix1 e) + x9 (ix2 4 e)) := by
  rw [val_main_v54_apply, val_main_v48_apply, val_main_v46_apply, val_main_v44_apply, val_main_v47_apply,
    val_main_v45_apply, val_main_v53_apply, val_main_v52_apply, val_main_v51_apply, val_main_v50_apply,
    val_main_v49_apply]
  have hx : idx_main_v44 (idx_main_v46 (ix2 r e)) = ix2 r 4 := by
    funext a; match a with | ⟨0, _⟩ => rfl | ⟨1, _⟩ => rfl
  have hw : idx_main_v45 (idx_main_v47 (ix2 r e)) = ix1 e := by
    funext a; match a with | ⟨0, _⟩ => rfl
  have hb : idx_main_v52 (idx_main_v53 (ix2 r e)) = ix1 e := by
    funext a; match a with | ⟨0, _⟩ => rfl
  have ht : idx_main_v49 (idx_main_v50 (ix1 e)) = ix2 4 e := by
    funext a; match a with
    | ⟨0, _⟩ => rfl
    | ⟨1, _⟩ => exact Fin.ext (Nat.mod_eq_of_lt e.isLt)
  rw [hx, hw, hb, ht]
  rfl

/-- Entry (r, e, 0) of the stack is source 0 at (r, e): piece 0 of the five, each of extent 1 along the last axis. -/
theorem stack_q0 (x0 : FVec Ideal S65536x5 .f32) (x1 x2 x3 x4 x5 x6 x7 x8 : FVec Ideal S512 .f32) (x9 : FVec Ideal S5x512 .f32)
    (r : Fin 65536) (e : Fin 512) :
    val_main_v60 (F := Ideal) x0 x1 x2 x3 x4 x5 x6 x7 x8 x9 (ix3 r e 0)
      = val_main_v10 (F := Ideal) x0 x1 x2 x9 (ix2 r e) := by
  unfold val_main_v60
  rw [concatenate_apply_piece (2 : Fin 3) _ _ (ix3 r e (0 : Fin 5)) 0 (by show (0 : Nat) < 5; decide) S65536x512x1
    (val_main_v55 (F := Ideal) x0 x1 x2 x9) rfl rfl 0 rfl (ix3 r e (0 : Fin 1))
    (fun b => match b with
      | ⟨0, _⟩ => fun _ => rfl
      | ⟨1, _⟩ => fun _ => rfl
      | ⟨2, _⟩ => fun h => absurd rfl h)
    rfl]
  rw [val_main_v55_apply]
  have hi : idx_main_v55 (ix3 r e (0 : Fin 1)) = ix2 r e := by
    funext a; match a with | ⟨0, _⟩ => rfl | ⟨1, _⟩ => rfl
  rw [hi]

/-- Entry (r, e, 1) of the stack is source 1 at (r, e): piece 1 of the five, each of extent 1 along the last axis. -/
theorem stack_q1 (x0 : FVec Ideal S65536x5 .f32) (x1 x2 x3 x4 x5 x6 x7 x8 : FVec Ideal S512 .f32) (x9 : FVec Ideal S5x512 .f32)
    (r : Fin 65536) (e : Fin 512) :
    val_main_v60 (F := Ideal) x0 x1 x2 x3 x4 x5 x6 x7 x8 x9 (ix3 r e 1)
      = val_main_v21 (F := Ideal) x0 x3 x4 x9 (ix2 r e) := by
  unfold val_main_v60
  rw [concatenate_apply_piece (2 : Fin 3) _ _ (ix3 r e (1 : Fin 5)) 1 (by show (1 : Nat) < 5; decide) S65536x512x1
    (val_main_v56 (F := Ideal) x0 x3 x4 x9) rfl rfl 1 rfl (ix3 r e (0 : Fin 1))
    (fun b => match b with
      | ⟨0, _⟩ => fun _ => rfl
      | ⟨1, _⟩ => fun _ => rfl
      | ⟨2, _⟩ => fun h => absurd rfl h)
    rfl]
  rw [val_main_v56_apply]
  have hi : idx_main_v56 (ix3 r e (0 : Fin 1)) = ix2 r e := by
    funext a; match a with | ⟨0, _⟩ => rfl | ⟨1, _⟩ => rfl
  rw [hi]

/-- Entry (r, e, 2) of the stack is source 2 at (r, e): piece 2 of the five, each of extent 1 along the last axis. -/
theorem stack_q2 (x0 : FVec Ideal S65536x5 .f32) (x1 x2 x3 x4 x5 x6 x7 x8 : FVec Ideal S512 .f32) (x9 : FVec Ideal S5x512 .f32)
    (r : Fin 65536) (e : Fin 512) :
    val_main_v60 (F := Ideal) x0 x1 x2 x3 x4 x5 x6 x7 x8 x9 (ix3 r e 2)
      = val_main_v32 (F := Ideal) x0 x3 x4 x9 (ix2 r e) := by
  unfold val_main_v60
  rw [concatenate_apply_piece (2 : Fin 3) _ _ (ix3 r e (2 : Fin 5)) 2 (by show (2 : Nat) < 5; decide) S65536x512x1
    (val_main_v57 (F := Ideal) x0 x3 x4 x9) rfl rfl 2 rfl (ix3 r e (0 : Fin 1))
    (fun b => match b with
      | ⟨0, _⟩ => fun _ => rfl
      | ⟨1, _⟩ => fun _ => rfl
      | ⟨2, _⟩ => fun h => absurd rfl h)
    rfl]
  rw [val_main_v57_apply]
  have hi : idx_main_v57 (ix3 r e (0 : Fin 1)) = ix2 r e := by
    funext a; match a with | ⟨0, _⟩ => rfl | ⟨1, _⟩ => rfl
  rw [hi]

/-- Entry (r, e, 3) of the stack is source 3 at (r, e): piece 3 of the five, each of extent 1 along the last axis. -/
theorem stack_q3 (x0 : FVec Ideal S65536x5 .f32) (x1 x2 x3 x4 x5 x6 x7 x8 : FVec Ideal S512 .f32) (x9 : FVec Ideal S5x512 .f32)
    (r : Fin 65536) (e : Fin 512) :
    val_main_v60 (F := Ideal) x0 x1 x2 x3 x4 x5 x6 x7 x8 x9 (ix3 r e 3)
      = val_main_v43 (F := Ideal) x0 x5 x6 x9 (ix2 r e) := by
  unfold val_main_v60
  rw [concatenate_apply_piece (2 : Fin 3) _ _ (ix3 r e (3 : Fin 5)) 3 (by show (3 : Nat) < 5; decide) S65536x512x1
    (val_main_v58 (F := Ideal) x0 x5 x6 x9) rfl rfl 3 rfl (ix3 r e (0 : Fin 1))
    (fun b => match b with
      | ⟨0, _⟩ => fun _ => rfl
      | ⟨1, _⟩ => fun _ => rfl
      | ⟨2, _⟩ => fun h => absurd rfl h)
    rfl]
  rw [val_main_v58_apply]
  have hi : idx_main_v58 (ix3 r e (0 : Fin 1)) = ix2 r e := by
    funext a; match a with | ⟨0, _⟩ => rfl | ⟨1, _⟩ => rfl
  rw [hi]

/-- Entry (r, e, 4) of the stack is source 4 at (r, e): piece 4 of the five, each of extent 1 along the last axis. -/
theorem stack_q4 (x0 : FVec Ideal S65536x5 .f32) (x1 x2 x3 x4 x5 x6 x7 x8 : FVec Ideal S512 .f32) (x9 : FVec Ideal S5x512 .f32)
    (r : Fin 65536) (e : Fin 512) :
    val_main_v60 (F := Ideal) x0 x1 x2 x3 x4 x5 x6 x7 x8 x9 (ix3 r e 4)
      = val_main_v54 (F := Ideal) x0 x7 x8 x9 (ix2 r e) := by
  unfold val_main_v60
  rw [concatenate_apply_piece (2 : Fin 3) _ _ (ix3 r e (4 : Fin 5)) 4 (by show (4 : Nat) < 5; decide) S65536x512x1
    (val_main_v59 (F := Ideal) x0 x7 x8 x9) rfl rfl 4 rfl (ix3 r e (0 : Fin 1))
    (fun b => match b with
      | ⟨0, _⟩ => fun _ => rfl
      | ⟨1, _⟩ => fun _ => rfl
      | ⟨2, _⟩ => fun h => absurd rfl h)
    rfl]
  rw [val_main_v59_apply]
  have hi : idx_main_v59 (ix3 r e (0 : Fin 1)) = ix2 r e := by
    funext a; match a with | ⟨0, _⟩ => rfl | ⟨1, _⟩ => rfl
  rw [hi]

/-- Column `c` of row `r` of the flattened array is entry (r, c / 5, c % 5) of the stack. -/
theorem flat_index (r : Fin 65536) (c : Fin 2560) :
    idx_main_v61 (ix2 r c) = ix3 r (Cert.Spec.feat c) (Cert.Spec.src c) := by
  have hr := r.isLt
  have hc := c.isLt
  funext a
  match a with
  | ⟨0, _⟩ => exact Fin.ext (by show (r.val * 2560 + c.val) / 2560 = r.val; omega)
  | ⟨1, _⟩ => exact Fin.ext (by show (r.val * 2560 + c.val) / 5 % 512 = c.val / 5; omega)
  | ⟨2, _⟩ => exact Fin.ext (by show (r.val * 2560 + c.val) % 5 = c.val % 5; omega)

/-- The stack at (r, e, q) is `x (r, q) · w_q (e) + (b_q (e) + table (q, e))`. -/
theorem stack_at (x0 : FVec Ideal S65536x5 .f32) (x1 x2 x3 x4 x5 x6 x7 x8 : FVec Ideal S512 .f32) (x9 : FVec Ideal S5x512 .f32)
    (r : Fin 65536) (e : Fin 512) (q : Fin 5) :
    val_main_v60 (F := Ideal) x0 x1 x2 x3 x4 x5 x6 x7 x8 x9 (ix3 r e q)
      = x0 (ix2 r q) * Cert.Spec.wSel x1 x3 x5 x7 q (ix1 e)
          + (Cert.Spec.bSel x2 x4 x6 x8 q (ix1 e) + x9 (ix2 q e)) := by
  match q with
  | ⟨0, _⟩ => exact (stack_q0 x0 x1 x2 x3 x4 x5 x6 x7 x8 x9 r e).trans (stage_q0 x0 x1 x2 x9 r e)
  | ⟨1, _⟩ => exact (stack_q1 x0 x1 x2 x3 x4 x5 x6 x7 x8 x9 r e).trans (stage_q1 x0 x3 x4 x9 r e)
  | ⟨2, _⟩ => exact (stack_q2 x0 x1 x2 x3 x4 x5 x6 x7 x8 x9 r e).trans (stage_q2 x0 x3 x4 x9 r e)
  | ⟨3, _⟩ => exact (stack_q3 x0 x1 x2 x3 x4 x5 x6 x7 x8 x9 r e).trans (stage_q3 x0 x5 x6 x9 r e)
  | ⟨4, _⟩ => exact (stack_q4 x0 x1 x2 x3 x4 x5 x6 x7 x8 x9 r e).trans (stage_q4 x0 x7 x8 x9 r e)

/-- **The reference's result is `G`.** -/
theorem ref_eq_G (x0 : FVec Ideal S65536x5 .f32) (x1 x2 x3 x4 x5 x6 x7 x8 : FVec Ideal S512 .f32) (x9 : FVec Ideal S5x512 .f32) :
    val_main_v61 (F := Ideal) x0 x1 x2 x3 x4 x5 x6 x7 x8 x9 = Cert.Spec.G x0 x1 x2 x3 x4 x5 x6 x7 x8 x9 := by
  funext j
  obtain ⟨r, c, rfl⟩ : ∃ (r : Fin 65536) (c : Fin 2560), j = ix2 r c := ⟨j 0, j 1, eq_ix2 j⟩
  rw [val_main_v61_apply, flat_index]
  exact stack_at x0 x1 x2 x3 x4 x5 x6 x7 x8 x9 r (Cert.Spec.feat c) (Cert.Spec.src c)

end Cert.ReferenceIdeal.RefValue

end
-- ==== Proof.lean ====
/-
  The certificate: a dense matmul kernel against an elementwise reference.

  The reference computes, for row `r` and column `c = 5·e + q` of a 65536 × 2560 result,
      x (r, q) · w_q (e) + (b_q (e) + table (q, e)),
  five scaled-and-shifted copies of columns of `x` interleaved feature by feature. The kernel computes the same number
  as ONE matrix product: `x` with a column of ones appended (65536 × 6) times a 6 × 2560 matrix that host operations
  assemble from the weights (times the 5 × 5 identity, so that column `5·e + q` only sees weight `q`) with the biases
  as its sixth row; the product runs on a grid of 128 row blocks of 512 rows.

  The three frames: both kernel programs terminate without a fault and leave their arguments unchanged (modules
  FrameKernel, FrameKernelIdeal: the body's triple, the pipeline's proof data, the launch); the reference is a
  straight-line host program, whose run is read back operation by operation.
  The idealization rewrote nothing, so that claim is trivial.
  The value claim, over the extended reals: the kernel's result array ends at the 6-term dot products of the two arrays
  the region found (module KernelBlocks: each grid point writes back its block of that one function, and the blocks
  cover the array); those two arrays are the padded `x` and the padded weight matrix (modules HostLeft, HostWeights);
  the dot product of a padded row with a padded column collapses to the reference's expression because four of its six
  terms carry a factor zero and `a · 0 = 0`, `a · 1 = a` hold for every extended real (module Spec) — so the inputs'
  finiteness is never used; and the reference's composed term, read at an index, is that same expression (module
  RefValue).
-/
import proofs.«169781_j24704651887296_2_alg».proof.Defs
import proofs.«169781_j24704651887296_2_alg».proof.Proof.Gen.Kernel
import proofs.«169781_j24704651887296_2_alg».proof.Proof.Gen.KernelIdeal
import proofs.«169781_j24704651887296_2_alg».proof.Proof.Gen.ReferenceIdeal
import proofs.«169781_j24704651887296_2_alg».proof.Proof.Gen.Pre_finite_inputs
import proofs.«169781_j24704651887296_2_alg».proof.Proof.Gen.ReferenceIdeal.Run
import proofs.«169781_j24704651887296_2_alg».proof.Proof.Gen.ReferenceIdeal.Read
import proofs.«169781_j24704651887296_2_alg».proof.Proof.Spec
import proofs.«169781_j24704651887296_2_alg».proof.Proof.FrameKernel
import proofs.«169781_j24704651887296_2_alg».proof.Proof.FrameKernelIdeal
import proofs.«169781_j24704651887296_2_alg».proof.Proof.KernelBlocks
import proofs.«169781_j24704651887296_2_alg».proof.Proof.HostLeft
import proofs.«169781_j24704651887296_2_alg».proof.Proof.HostWeights
import proofs.«169781_j24704651887296_2_alg».proof.Proof.RefValue

noncomputable section

namespace Cert.Proof

open Idealize.ShloMosaic Idealize.SL.Sem

/-- The word-level kernel runs to the end, faults nowhere and leaves its arguments unchanged. -/
theorem frame_kernel : @Cert.frame_Kernel Cert.Kernel.Gen.facts Cert.Pre_finite_inputs.Gen.facts :=
  fun m ρ _ => Cert.Kernel.Frame.frame (F := Bits) m ρ

/-- So does the idealized kernel. -/
theorem frame_kernelIdeal : @Cert.frame_KernelIdeal Cert.KernelIdeal.Gen.facts Cert.Pre_finite_inputs.Gen.facts :=
  fun m ρ _ => Cert.KernelIdeal.Frame.frame (F := Ideal) m ρ

/-- The reference is a list of host operations: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the result at `G` of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩) (Cert.KernelIdeal.Blocks.run m ρ)
    show Cert.Spec.Prod6 (Cert.KernelIdeal.Frame.V m c Cert.KernelIdeal.main_v42) (Cert.KernelIdeal.Frame.V m c Cert.KernelIdeal.main_v40) = _
    rw [Cert.KernelIdeal.HostLeft.lhs_eq, Cert.KernelIdeal.HostWeights.rhs_eq, Cert.Spec.prod6_eq_G]
  · refine (θ_run Cert.ReferenceIdeal.defs _ _).mono (fun r h c => ⟨(h c).1.trans ?_, (h c).2⟩)
      (Cert.ReferenceIdeal.Value.run (F := Ideal) m' ρ')
    show Cert.ReferenceIdeal.Read.val_main_v61 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [Cert.ReferenceIdeal.RefValue.ref_eq_G,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
